-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256x16 .f32) (main_arg5 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S400x10000 : Shape := ⟨2, ![400, 10000]⟩
abbrev S400x128 : Shape := ⟨2, ![400, 128]⟩
abbrev S400x16 : Shape := ⟨2, ![400, 16]⟩
abbrev S400 : Shape := ⟨1, ![400]⟩
abbrev S400x1 : Shape := ⟨2, ![400, 1]⟩
abbrev S128x128 : Shape := ⟨2, ![128, 128]⟩
abbrev S128x16 : Shape := ⟨2, ![128, 16]⟩

abbrev nBuf : Space → Nat
  | .hbm => 11
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x16, .f32⟩
  | .hbm, ⟨5, _⟩ => ⟨S16, .f32⟩
  | .hbm, ⟨6, _⟩ => ⟨S1x128, .f32⟩
  | .hbm, ⟨7, _⟩ => ⟨S1x16, .f32⟩
  | .hbm, ⟨8, _⟩ => ⟨S10000x16, .f32⟩
  | .hbm, ⟨9, _⟩ => ⟨S10000x16, .f32⟩
  | .hbm, ⟨10, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S1x128, .f32⟩
  | .local _ .vmem, ⟨7, _⟩ => ⟨S256x16, .f32⟩
  | .local _ .vmem, ⟨8, _⟩ => ⟨S1x16, .f32⟩
  | .local _ .vmem, ⟨9, _⟩ => ⟨S400x16, .f32⟩
  | .local _ .vmem, ⟨10, _⟩ => ⟨S400x16, .f32⟩
  | .local _ .vmem, ⟨11, _⟩ => ⟨S400x16, .f32⟩
  | .local _ .vmem, ⟨12, _⟩ => ⟨S400x16, .f32⟩
  | .local _ .vmem, ⟨13, _⟩ => ⟨S400x10000, .f32⟩
  | .local _ .vmem, ⟨14, _⟩ => ⟨S400x10000, .f32⟩
  | .local _ .vmem, ⟨15, _⟩ => ⟨S10000x16, .f32⟩
  | .local _ .vmem, ⟨16, _⟩ => ⟨S400x16, .f32⟩
  | .local _ .vmem, ⟨17, _⟩ => ⟨S400x16, .f32⟩
  | .local _ .vmem, ⟨18, _⟩ => ⟨S400x16, .f32⟩
  | .local _ .vmem, ⟨19, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2_0 : Ref sig .tc := ⟨.hbm, 8, rfl⟩
abbrev main_call0_v2_1 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  shapeCasts_S16_S1x16 : S16.ShapeCasts S1x16
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  bitsLt_bf16_f32 : FTy.bits .bf16 < FTy.bits .f32
  broadcasts_S400x1_S400x128 : S400x1.Broadcasts S400x128
  inb_S400x128_S400x128_0_0 : ∀ a, (![0, 0] : Fin 2 → Nat) a + S400x128.size a ≤ S400x128.size a
  h_S400x128 : 0 < S400x128.numel
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S256x16_S256x16_0_0 : ∀ a, (![0, 0] : Fin 2 → Nat) a + S256x16.size a ≤ S256x16.size a
  h_S256x16 : 0 < S256x16.numel
  slices_S256x16_o0_0_S128x16 : S256x16.Slices ![0, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  slices_S256x16_o128_0_S128x16 : S256x16.Slices ![128, 0] S128x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S400x16_S400x16 : S400x16.ShapeCasts S400x16
  broadcasts_S400x1_S400x16 : S400x1.Broadcasts S400x16
  reduces_S400x16_S400 : S400x16.Reduces [1] S400
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x16_S400x16_1_0_0_1_n_n_wf : DotDims.WF S400x128 S128x16 S400x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x16.size a ≤ S10000x16.size a
  hwx0_7 : ∀ i : grid0.Coords, EltTy.bits .f32 = 32 ∨ (Rect.block (s := S10000x16) S400x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x16.size a ≤ S10000x16.size a
  hwx0_8 : ∀ i : grid0.Coords, EltTy.bits .f32 = 32 ∨ (Rect.block (s := S10000x16) S400x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .f32 = 32 ∨ (Rect.block (s := S10000x16) S400x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2_0) S400x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2_1) S400x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_1) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2_0) S400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩
abbrev S10000x16 : Shape := ⟨2, ![10000, 16]⟩
abbrev S1x16 : Shape := ⟨2, ![1, 16]⟩

abbrev nBuf : Space → Nat
  | .hbm => 54
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x16, .f32⟩
  | .hbm, ⟨5, _⟩ => ⟨S16, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S_, .f32⟩
  | .hbm, ⟨28, _⟩ => ⟨S_, .f32⟩
  | .hbm, ⟨29, _⟩ => ⟨S10000x1, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S10000x16, .f32⟩
  | .hbm, ⟨36, _⟩ => ⟨S1x16, .f32⟩
  | .hbm, ⟨37, _⟩ => ⟨S10000x16, .f32⟩
  | .hbm, ⟨38, _⟩ => ⟨S10000x16, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x16, .f32⟩
  | .hbm, ⟨46, _⟩ => ⟨S10000x16, .f32⟩
  | .hbm, ⟨47, _⟩ => ⟨S10000x16, .f32⟩
  | .hbm, ⟨48, _⟩ => ⟨S_, .f32⟩
  | .hbm, ⟨49, _⟩ => ⟨S10000, .f32⟩
  | .hbm, ⟨50, _⟩ => ⟨S10000x1, .f32⟩
  | .hbm, ⟨51, _⟩ => ⟨S10000x1, .f32⟩
  | .hbm, ⟨52, _⟩ => ⟨S10000x16, .f32⟩
  | .hbm, ⟨53, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  bcast_S_S10000 : S_.BroadcastsInDim S10000 (![] : Fin 0 → Fin S10000.rank)
  bcast_S10000x1_S10000x16_0_1 : S10000x1.BroadcastsInDim S10000x16 (![0, 1] : Fin 2 → Fin S10000x16.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x256_S256x16_S10000x16_1_0_0_1_n_n_wf : DotDims.WF S10000x256 S256x16 S10000x16 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf

class Facts : Prop extends Facts₀ where

variable [Facts]
-- ==== Proof.KData.lean ====
/-
  The proof data of the two pipelined passes, at any float instance, over the buffer contents `V` each pass is entered
  from. A pass walks 25 row blocks of the weight matrix; at block `t` the body reads rows 400·t … 400·t+399 of the
  weights and of the row-blocked operands and the whole of the others, and overwrites block `t` of each result with
  one pure function of what it read. So after the body every input window holds its block again and every result window
  holds that function of the input blocks.

  In the first pass two input windows read the SAME feature array (once whole, once by row blocks): each holds it at
  half a share.
-/
import proofs.«142810_g53910429499711_cont_9to1_m_389_4_alg».proof.Proof.Gen.Kernel.Launch
import proofs.«142810_g53910429499711_cont_9to1_m_389_4_alg».proof.Proof.Gen.Kernel.Skeleton
import proofs.«142810_g53910429499711_cont_9to1_m_389_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The two halves of a whole share. -/
def shareL : PosShare TreeShare := PosShare.left fullShare
def shareR : PosShare TreeShare := PosShare.right fullShare
/-- They make the whole. -/
theorem share_split : fullShare ∈ PCS.op shareL shareR := PosShare.mem_left_op_right fullShare

/-! ## First pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first pass's proof data on core `c`. Windows 0–6 are inputs and keep their blocks; window 7 ends at the node's
    own logit contribution, window 8 at what it offers its neighbours, both functions of the seven input blocks.
    Windows 1 and 2 read one array: half a share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 2 t) (iblk0 V c 3 t) (iblk0 V c 4 t) (iblk0 V c 5 t) (iblk0 V c 6 t)
    | ⟨8, _⟩ => k0_pay3 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => shareL
    | ⟨2, _⟩ => shareR
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = k0_pay2 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t
    = k0_pay3 (iblk0 V c 0 t) (iblk0 V c 1 t) (iblk0 V c 2 t) (iblk0 V c 3 t) (iblk0 V c 4 t) (iblk0 V c 5 t) := by dsimp only [dat0]

/-! ## Second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pass's proof data on core `c`: three inputs keep their blocks, the result window ends at the
    log-softmax rows computed from them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = k1_pay1 (iblk1 V c 0 t) (iblk1 V c 1 t) (iblk1 V c 2 t) := by dsimp only [dat1]

end Cert.Kernel.Hand

end
-- ==== Proof.KVal.lean ====
/-
  The buffer contents between the segments of the two-pass program, at any float instance: at launch, after the two
  bias reshapes, after the first pass (its two result arrays at what the write-backs leave), after the second pass.
-/
import proofs.«142810_g53910429499711_cont_9to1_m_389_4_alg».proof.Proof.KData
import proofs.«142810_g53910429499711_cont_9to1_m_389_4_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the segments -/

/-- Before the first pass: the launch contents after the two bias reshapes, read at the core's references. -/
abbrev R1 : (c : Dev nD) → (b : Ref sig .tc) → Buf (Elt F) ((c : Thread nD τ).loc b) := fun c b => V1 m c b

/-- After the first pass: its two result arrays at what the write-backs leave, everything else as before. -/
def W2 (c : Dev nD) : Valuation τ sig (Elt F) :=
  Function.update (Function.update (V1 m c) main_call0_v2_0 ((dat0 (R1 m) c).arrAt 7 cfg0.N)) main_call0_v2_1 ((dat0 (R1 m) c).arrAt 8 cfg0.N)
abbrev R2 : (c : Dev nD) → (b : Ref sig .tc) → Buf (Elt F) ((c : Thread nD τ).loc b) := fun c b => W2 m c b

/-- After the second pass: the result array at what its write-backs leave. -/
def W3 (c : Dev nD) : Valuation τ sig (Elt F) :=
  Function.update (W2 m c) main_v0 ((dat1 (R2 m) c).arrAt 3 cfg1.N)
abbrev R3 : (c : Dev nD) → (b : Ref sig .tc) → Buf (Elt F) ((c : Thread nD τ).loc b) := fun c b => W3 m c b

theorem W2_v2_1 (c : Dev nD) : W2 m c main_call0_v2_1 = (dat0 (R1 m) c).arrAt 8 cfg0.N := by
  unfold W2; exact Function.update_self ..
theorem W2_v2_0 (c : Dev nD) : W2 m c main_call0_v2_0 = (dat0 (R1 m) c).arrAt 7 cfg0.N := by
  unfold W2
  rw [Function.update_of_ne (StableHlo.devRef_ne_of_ne (by decide) : (Proc.devRef .tc main_call0_v2_0 : DevRef τ sig) ≠ Proc.devRef .tc main_call0_v2_1)]
  exact Function.update_self ..
theorem W2_of (c : Dev nD) (r : Ref sig .tc) (h : r ∉ ([main_call0_v2_0, main_call0_v2_1] : List (Ref sig .tc))) : W2 m c r = V1 m c r := by
  unfold W2
  rw [Function.update_of_ne (StableHlo.devRef_ne_of_ne (List.ne_of_not_mem_cons (List.not_mem_of_not_mem_cons h)) : (Proc.devRef .tc r : DevRef τ sig) ≠ Proc.devRef .tc main_call0_v2_1),
    Function.update_of_ne (StableHlo.devRef_ne_of_ne (List.ne_of_not_mem_cons h) : (Proc.devRef .tc r : DevRef τ sig) ≠ Proc.devRef .tc main_call0_v2_0)]
theorem W3_v0 (c : Dev nD) : W3 m c main_v0 = (dat1 (R2 m) c).arrAt 3 cfg1.N := by
  unfold W3; exact Function.update_self ..
theorem W3_of (c : Dev nD) (r : Ref sig .tc) (h : r ∉ ([main_v0] : List (Ref sig .tc))) : W3 m c r = W2 m c r := by
  unfold W3
  rw [Function.update_of_ne (StableHlo.devRef_ne_of_ne (List.ne_of_not_mem_cons h) : (Proc.devRef .tc r : DevRef τ sig) ≠ Proc.devRef .tc main_v0)]

/-- An argument array reaches the end as launched: no reshape writes it, no pass may change it. -/
theorem W3_arg (c : Dev nD) (r : Ref sig .tc) (h3 : r ∉ ([main_v0] : List (Ref sig .tc)))
    (h2 : r ∉ ([main_call0_v2_0, main_call0_v2_1] : List (Ref sig .tc))) (h1 : r ∉ (hostOps0_W : List (Ref sig .tc))) :
    W3 m c r = m ((c : Thread nD τ).loc r) :=
  (W3_of m c r h3).trans <| (W2_of m c r h2).trans <| (V1_of m c r h1).trans rfl

/-! ## What each pass leaves, read against the contents after it -/

theorem hF0 (c : Dev nD) : ∀ w : Fin cfg0.W, (dat0 (R1 m) c).arrAt w cfg0.N = R2 m c (Pipeline.arrRef spec0 w) := fun
  | 0 => ((dat0 (R1 m) c).arrAt_in 0 rfl _).trans ((A_eq0 (R1 m) c 0).trans (W2_of m c _ (by decide)).symm)
  | 1 => ((dat0 (R1 m) c).arrAt_in 1 rfl _).trans ((A_eq0 (R1 m) c 1).trans (W2_of m c _ (by decide)).symm)
  | 2 => ((dat0 (R1 m) c).arrAt_in 2 rfl _).trans ((A_eq0 (R1 m) c 2).trans (W2_of m c _ (by decide)).symm)
  | 3 => ((dat0 (R1 m) c).arrAt_in 3 rfl _).trans ((A_eq0 (R1 m) c 3).trans (W2_of m c _ (by decide)).symm)
  | 4 => ((dat0 (R1 m) c).arrAt_in 4 rfl _).trans ((A_eq0 (R1 m) c 4).trans (W2_of m c _ (by decide)).symm)
  | 5 => ((dat0 (R1 m) c).arrAt_in 5 rfl _).trans ((A_eq0 (R1 m) c 5).trans (W2_of m c _ (by decide)).symm)
  | 6 => ((dat0 (R1 m) c).arrAt_in 6 rfl _).trans ((A_eq0 (R1 m) c 6).trans (W2_of m c _ (by decide)).symm)
  | 7 => (W2_v2_0 m c).symm
  | 8 => (W2_v2_1 m c).symm
  | ⟨_ + 9, h⟩ => absurd h (Nat.not_lt.2 (Nat.le_add_left _ _))

theorem hrest0 (c : Dev nD) : ∀ b, b ∉ Finset.univ.image (Pipeline.arrRef spec0) → R2 m c b = R1 m c b := fun b hb =>
  W2_of m c b (fun h => hb (by
    rcases List.mem_cons.mp h with rfl | h
    · exact Finset.mem_image.mpr ⟨7, Finset.mem_univ _, rfl⟩
    · rcases List.mem_cons.mp h with rfl | h
      · exact Finset.mem_image.mpr ⟨8, Finset.mem_univ _, rfl⟩
      · exact absurd h List.not_mem_nil))

theorem hF1 (c : Dev nD) : ∀ w : Fin cfg1.W, (dat1 (R2 m) c).arrAt w cfg1.N = R3 m c (Pipeline.arrRef spec1 w) := fun
  | 0 => ((dat1 (R2 m) c).arrAt_in 0 rfl _).trans ((A_eq1 (R2 m) c 0).trans (W3_of m c _ (by decide)).symm)
  | 1 => ((dat1 (R2 m) c).arrAt_in 1 rfl _).trans ((A_eq1 (R2 m) c 1).trans (W3_of m c _ (by decide)).symm)
  | 2 => ((dat1 (R2 m) c).arrAt_in 2 rfl _).trans ((A_eq1 (R2 m) c 2).trans (W3_of m c _ (by decide)).symm)
  | 3 => (W3_v0 m c).symm
  | ⟨_ + 4, h⟩ => absurd h (Nat.not_lt.2 (Nat.le_add_left _ _))

theorem hrest1 (c : Dev nD) : ∀ b, b ∉ Finset.univ.image (Pipeline.arrRef spec1) → R3 m c b = R2 m c b := fun b hb =>
  W3_of m c b (fun h => hb (by
    rcases List.mem_cons.mp h with rfl | h
    · exact Finset.mem_image.mpr ⟨3, Finset.mem_univ _, rfl⟩
    · exact absurd h List.not_mem_nil))

end Cert.Kernel.Hand

end
-- ==== Proof.KBody.lean ====
/-
  The body obligations of the two pipelined passes, at any float instance.

  At every point of a pass each input window's current staging buffer holds that window's block of its array — at a
  point where the block is fetched because it was just fetched, elsewhere because the block index has not moved since
  it was. The body loads every input whole, loads each result buffer once (contents nobody names) and then overwrites
  it whole, by ONE store through the whole-buffer rectangle at zero offsets, with a pure function of the loaded inputs.
  A load through that rectangle reads the buffer and a store through it leaves its payload, so after the body every
  input buffer holds its block as before and every result buffer holds that function of the input blocks: what the
  proof data of the passes say.
-/
import proofs.«142810_g53910429499711_cont_9to1_m_389_4_alg».proof.Proof.KData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-2 access, however spelt. -/
theorem zero_off2 : (![0, 0] : Fin 2 → Nat) = fun _ => 0 := funext fun a => by fin_cases a <;> rfl

/-- A load through the whole-buffer rectangle at zero offsets reads what the memref reads. -/
theorem readAt_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-buffer rectangle at zero offsets leaves its payload, whatever was there. -/
theorem read_writes_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-! # First pass -/

/-! ## First pass: each input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

/-! ## First pass: the body's triple -/

set_option maxHeartbeats 1000000 in
/-- The first pass's body on whole staging memrefs, the seven inputs at read contents `x0 … x6` and the two results at
    anything, runs to the continuation holding the inputs as they were, the first result at the node's own logit
    contribution and the second at what it offers its neighbours, both as functions of the inputs. The body calls one
    part (which loads the inputs, loads and overwrites the first result and returns the second result's value) and then
    loads and overwrites the second result. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S256x16 .f32) (harg6 : arg6.IsWhole)
    (arg7 : Memref sig .tc .vmem S1x16 .f32) (harg7 : arg7.IsWhole) (arg8 : Memref sig .tc .vmem S400x16 .f32) (harg8 : arg8.IsWhole)
    (arg9 : Memref sig .tc .vmem S400x16 .f32) (harg9 : arg9.IsWhole)
    (x0 : Vec F S400x10000 .f32) (x1 : Vec F S10000x128 .f32) (x2 : Vec F S400x128 .f32) (x3 : Vec F S256x128 .f32)
    (x4 : Vec F S1x128 .f32) (x5 : Vec F S256x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k0_pay2 x0 x1 x2 x3 x4 x5 x6)
            ∗ owns (c : Thread nD τ) arg9 fullShare (k0_pay3 x0 x1 x2 x3 x4 x5)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole_zero _ _ zero_off2, readAt_whole_zero _ _ zero_off2, readAt_whole_zero _ _ zero_off2,
      readAt_whole_zero _ _ zero_off2, readAt_whole_zero _ _ zero_off2, readAt_whole_zero _ _ zero_off2,
      readAt_whole_zero _ _ zero_off2, readAt_whole_zero _ _ zero_off2]
  iexists _; isplitr
  swap; · iexact H8
  ipureintro
  rw [read_writes_whole_zero _ _ zero_off2, readAt_whole_zero _ _ zero_off2, readAt_whole_zero _ _ zero_off2,
    readAt_whole_zero _ _ zero_off2, readAt_whole_zero _ _ zero_off2, readAt_whole_zero _ _ zero_off2,
    readAt_whole_zero _ _ zero_off2]

/-! ## First pass: the body obligation -/

/-- What the first pass's body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the seven inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for the first pass, at every point. -/
theorem body_obligation0 (c : Dev nD) : BodyObligation (dat0 (F := F) V c) (defs₀ (F := F)) Variants.none () Set.univ := fun t => by
  rw [bigSep_W0, bigSep_W0]
  exact sound_body0 V c t

/-! # Second pass -/

/-! ## Second pass: each input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

/-! ## Second pass: the body's triple -/

set_option maxHeartbeats 1000000 in
/-- The second pass's body on whole staging memrefs, the three inputs at read contents `x0 x1 x2` and the result at
    anything, runs to the continuation holding the inputs as they were and the result at the log-softmax rows computed
    from them: it loads the inputs, loads the result buffer once and overwrites it whole. -/
theorem sound_kernel1 (c : Dev nD) (E : Set ℕ) (i : grid1.Coords)
    (arg1 : Memref sig .tc .vmem S400x10000 .f32) (harg1 : arg1.IsWhole) (arg2 : Memref sig .tc .vmem S10000x16 .f32) (harg2 : arg2.IsWhole)
    (arg3 : Memref sig .tc .vmem S400x16 .f32) (harg3 : arg3.IsWhole) (arg4 : Memref sig .tc .vmem S400x16 .f32) (harg4 : arg4.IsWhole)
    (x0 : Vec F S400x10000 .f32) (x1 : Vec F S10000x16 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E
          (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_writes_whole_zero _ _ zero_off2, readAt_whole_zero _ _ zero_off2, readAt_whole_zero _ _ zero_off2,
    readAt_whole_zero _ _ zero_off2]

/-! ## Second pass: the body obligation -/

/-- What the second pass's body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second pass, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShare.lean ====
/-
  The first pass's arrays against the core's unscoped buffers, two of its windows reading ONE array.

  Windows 1 and 2 of the first pass read the feature array, each at half a share; the two halves make the whole
  share, and a points-to at the whole share is the two points-tos at the halves at the same contents. So the pass's
  arrays, every window at contents read off one assignment of the buffers, ARE the distinct buffers behind them,
  each whole at the full share, at that assignment — and the core's unscoped buffers are those and the rest.
-/
import proofs.«142810_g53910429499711_cont_9to1_m_389_4_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The shares the first pass's windows hold their arrays at. -/
theorem share0_0 (c : Dev nD) : (dat0 V c).share 0 = fullShare := rfl
theorem share0_1 (c : Dev nD) : (dat0 V c).share 1 = shareL := rfl
theorem share0_2 (c : Dev nD) : (dat0 V c).share 2 = shareR := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- A buffer whole at the full share is the same buffer at the two halves, at the same contents. -/
theorem pointsTo_halves (c : Dev nD) (b : Ref sig .tc) (f : Buf (Elt F) ((c : Thread nD τ).loc b)) :
    ((((c : Thread nD τ).loc b) ↦{fullShare} f) : sProp 𝕄)
      = iprop((((c : Thread nD τ).loc b) ↦{shareL} f) ∗ (((c : Thread nD τ).loc b) ↦{shareR} f)) :=
  (pointsTo_share share_split).mp.antisymm (pointsTo_share share_split).mpr

/-- Separating conjunction is associative, as an equation. -/
theorem sep_assoc_eq (P Q R : sProp 𝕄) : iprop((P ∗ Q) ∗ R) = iprop(P ∗ Q ∗ R) :=
  (Laws.sep_assoc (P := P) (Q := Q) (R := R)).mp.antisymm (Laws.sep_assoc (P := P) (Q := Q) (R := R)).mpr

/-- The distinct buffers behind the first pass's windows, one by one. -/
theorem arrBufs0_eq (c : Dev nD) (V' : (b : Ref sig .tc) → Buf (Elt F) ((c : Thread nD τ).loc b)) :
    (Pipeline.arrBufs spec0 c V' : sProp 𝕄)
      = iprop((((c : Thread nD τ).loc main_arg1) ↦{fullShare} V' main_arg1) ∗ (((c : Thread nD τ).loc main_arg0) ↦{fullShare} V' main_arg0)
          ∗ (((c : Thread nD τ).loc main_arg2) ↦{fullShare} V' main_arg2) ∗ (((c : Thread nD τ).loc main_call0_v0) ↦{fullShare} V' main_call0_v0)
          ∗ (((c : Thread nD τ).loc main_arg4) ↦{fullShare} V' main_arg4) ∗ (((c : Thread nD τ).loc main_call0_v1) ↦{fullShare} V' main_call0_v1)
          ∗ (((c : Thread nD τ).loc main_call0_v2_0) ↦{fullShare} V' main_call0_v2_0) ∗ (((c : Thread nD τ).loc main_call0_v2_1) ↦{fullShare} V' main_call0_v2_1)) := by
  unfold Pipeline.arrBufs
  exact bigSep_eq_bigSepL_of_eq [main_arg1, main_arg0, main_arg2, main_call0_v0, main_arg4, main_call0_v1, main_call0_v2_0, main_call0_v2_1]
    (by decide) (by decide) _

/-- The first pass's arrays, every window at the contents one assignment `V'` of the buffers gives its array, are the
    distinct buffers behind them at `V'`: the two halves of the shared array join into the whole. -/
theorem arrays0_eq (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    ((dat0 V c).arrays Fw : sProp 𝕄) = Pipeline.arrBufs spec0 c V' := by
  have h1 : ((dat0 V c).arrays Fw : sProp 𝕄) = bigSep Finset.univ fun w : Fin 9 =>
      ((((c : Thread nD τ).loc (Pipeline.arrRef spec0 w)) ↦{(dat0 V c).share w} V' (Pipeline.arrRef spec0 w)) : sProp 𝕄) := by
    unfold Pipeline.Dat.arrays
    exact bigSep_congr fun w _ => by rw [(arr_whole0 w).set_eq_univ, hF w]
  rw [h1, bigSep_W0, arrBufs0_eq, share0_0, share0_1, share0_2, share0_3, share0_4, share0_5, share0_6, share0_7, share0_8]
  rw [pointsTo_halves c main_arg0 (V' main_arg0), sep_assoc_eq]

/-- ENTRY: the core's unscoped buffers at contents `V c` are the first pass's arrays at the contents the pass is
    entered from, and the unscoped rest. -/
theorem arrays0_entry (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c),
    arrays0_eq V c (V c) ((dat0 V c).arrAt · 0) (fun w => A_eq0 V c w)]
  exact .rfl

/-- EXIT: the first pass's arrays at contents `Fw` that one assignment `V'` of the buffers gives, beside the unscoped
    rest as the pass found it, are the core's unscoped buffers at `V'`, `V'` being the old contents off the arrays. -/
theorem arrays0_exit (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w))
    (hrest : ∀ b, b ∉ Finset.univ.image (Pipeline.arrRef spec0) → V' b = V c b) :
    iprop((dat0 V c).arrays Fw ∗ Pipeline.unscopedRest spec0 c (V c)) ⊢ (unscopedBufs c V' : sProp 𝕄) := by
  have hr : (Pipeline.unscopedRest spec0 c (V c) : sProp 𝕄) = Pipeline.unscopedRest spec0 c V' := by
    unfold Pipeline.unscopedRest
    exact bigSep_congr fun b hb => by rw [hrest b (Finset.mem_sdiff.mp hb).2]
  rw [Pipeline.unscopedBufs_split₀ cfgs 0 winFacts₀0.arr_unscoped c V', arrays0_eq V c V' Fw hF, hr]
  exact .rfl

end Cert.Kernel.Hand

end
-- ==== Proof.KRun.lean ====
/-
  The whole run of the two-pass program, at any float instance: each pass as a segment of the main program entered from
  every unscoped buffer at known contents, and the run's post — the result buffer at what the second pass's write-backs
  leave, every argument as launched.
-/
import proofs.«142810_g53910429499711_cont_9to1_m_389_4_alg».proof.Proof.KVal
import proofs.«142810_g53910429499711_cont_9to1_m_389_4_alg».proof.Proof.KBody
import proofs.«142810_g53910429499711_cont_9to1_m_389_4_alg».proof.Proof.KShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)

/-! ## The passes as segments -/

/-- The reshapes before the first pass as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

set_option backward.isDefEq.respectTransparency.types false in
/-- THE FIRST PASS over the thread state: entered from every unscoped buffer at the contents after the reshapes, left
    with its two result arrays at what the write-backs leave. Its windows' arrays are split out of the unscoped buffers
    — the feature array, read by two windows, at half a share each — and put back at the exit;
    the generator register goes into the pass's invariant and comes out; nothing is owed; the kernel has no semaphore
    of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit : (unscopedBufs c (R1 m c) : sProp 𝕄) ⊢ iprop((pdats m 0 c).arrays ((pdats m 0 c).arrAt · 0) ∗ Pipeline.unscopedRest spec0 c (R1 m c)) := arrays0_entry (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (R1 m c)) ⊢ (unscopedBufs c (R2 m c) : sProp 𝕄) := arrays0_exit (R1 m) c (R2 m c) ((dat0 (R1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS over the thread state: entered from the contents the first pass left, left with the result array at
    what its write-backs leave. Its four arrays are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ R c)
  post c := iprop((StableHlo.held (c : Thread nD τ) (Pipeline.ucRefs τ sig) (W3 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main program as segments, and the launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Launch

/-- The main program's three segments in order: the reshapes, the first pass, the second pass. -/
abbrev psegs : List (Pipeline.Seg (pcfgs (F := F)) adm (pdats m) () defs₀ 𝒱₀ L lv) :=
  [ .host (hseg0 m), .region (reg0 m), .region (reg1 m) ]

theorem main_run (c : Dev nD) : main (F := F) c = Pipeline.Seg.run (psegs m) := (main_chain c).trans (by chain_rfl)

set_option backward.isDefEq.respectTransparency.types false in
/-- THE RUN, at any float instance: from any memory with zero counters every weakly fair execution of the main program
    terminates, nothing faulting; the result buffer ends at what the second pass's write-backs leave of the contents
    the first pass left, and every argument array ends as launched. -/
theorem run_main : θ_run defs (onTc (τ := τ) (main (F := F))) ⟨m, fun _ => 0, ρ⟩ (fun r => ∀ c : Dev nD,
      r.2.mem ((c.tc : Thread nD τ).loc main_v0) = (dat1 (R2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v0 (by decide))).trans (W3_v0 m c),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide))⟩)

end Launch

end Cert.Kernel.Hand

end
-- ==== Proof.KIData.lean ====
/-
  The proof data of the two pipelined passes, at any float instance, over the buffer contents `V` each pass is entered
  from. A pass walks 25 row blocks of the weight matrix; at block `t` the body reads rows 400·t … 400·t+399 of the
  weights and of the row-blocked operands and the whole of the others, and overwrites block `t` of each result with
  one pure function of what it read. So after the body every input window holds its block again and every result window
  holds that function of the input blocks.

  In the first pass two input windows read the SAME feature array (once whole, once by row blocks): each holds it at
  half a share.
-/
import proofs.«142810_g53910429499711_cont_9to1_m_389_4_alg».proof.Proof.Gen.KernelIdeal.Launch
import proofs.«142810_g53910429499711_cont_9to1_m_389_4_alg».proof.Proof.Gen.KernelIdeal.Skeleton
import proofs.«142810_g53910429499711_cont_9to1_m_389_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The two halves of a whole share. -/
def shareL : PosShare TreeShare := PosShare.left fullShare
def shareR : PosShare TreeShare := PosShare.right fullShare
/-- They make the whole. -/
theorem share_split : fullShare ∈ PCS.op shareL shareR := PosShare.mem_left_op_right fullShare

/-! ## First pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first pass's proof data on core `c`. Windows 0–6 are inputs and keep their blocks; window 7 ends at the node's
    own logit contribution, window 8 at what it offers its neighbours, both functions of the seven input blocks.
    Windows 1 and 2 read one array: half a share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 2 t) (iblk0 V c 3 t) (iblk0 V c 4 t) (iblk0 V c 5 t) (iblk0 V c 6 t)
    | ⟨8, _⟩ => k0_pay3 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => shareL
    | ⟨2, _⟩ => shareR
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = k0_pay2 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t
    = k0_pay3 (iblk0 V c 0 t) (iblk0 V c 1 t) (iblk0 V c 2 t) (iblk0 V c 3 t) (iblk0 V c 4 t) (iblk0 V c 5 t) := by dsimp only [dat0]

/-! ## Second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pass's proof data on core `c`: three inputs keep their blocks, the result window ends at the
    log-softmax rows computed from them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = k1_pay1 (iblk1 V c 0 t) (iblk1 V c 1 t) (iblk1 V c 2 t) := by dsimp only [dat1]

end Cert.KernelIdeal.Hand

end
-- ==== Proof.KIVal.lean ====
/-
  The buffer contents between the segments of the two-pass program, at any float instance: at launch, after the two
  bias reshapes, after the first pass (its two result arrays at what the write-backs leave), after the second pass.
-/
import proofs.«142810_g53910429499711_cont_9to1_m_389_4_alg».proof.Proof.KIData
import proofs.«142810_g53910429499711_cont_9to1_m_389_4_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the segments -/

/-- Before the first pass: the launch contents after the two bias reshapes, read at the core's references. -/
abbrev R1 : (c : Dev nD) → (b : Ref sig .tc) → Buf (Elt F) ((c : Thread nD τ).loc b) := fun c b => V1 m c b

/-- After the first pass: its two result arrays at what the write-backs leave, everything else as before. -/
def W2 (c : Dev nD) : Valuation τ sig (Elt F) :=
  Function.update (Function.update (V1 m c) main_call0_v2_0 ((dat0 (R1 m) c).arrAt 7 cfg0.N)) main_call0_v2_1 ((dat0 (R1 m) c).arrAt 8 cfg0.N)
abbrev R2 : (c : Dev nD) → (b : Ref sig .tc) → Buf (Elt F) ((c : Thread nD τ).loc b) := fun c b => W2 m c b

/-- After the second pass: the result array at what its write-backs leave. -/
def W3 (c : Dev nD) : Valuation τ sig (Elt F) :=
  Function.update (W2 m c) main_v0 ((dat1 (R2 m) c).arrAt 3 cfg1.N)
abbrev R3 : (c : Dev nD) → (b : Ref sig .tc) → Buf (Elt F) ((c : Thread nD τ).loc b) := fun c b => W3 m c b

theorem W2_v2_1 (c : Dev nD) : W2 m c main_call0_v2_1 = (dat0 (R1 m) c).arrAt 8 cfg0.N := by
  unfold W2; exact Function.update_self ..
theorem W2_v2_0 (c : Dev nD) : W2 m c main_call0_v2_0 = (dat0 (R1 m) c).arrAt 7 cfg0.N := by
  unfold W2
  rw [Function.update_of_ne (StableHlo.devRef_ne_of_ne (by decide) : (Proc.devRef .tc main_call0_v2_0 : DevRef τ sig) ≠ Proc.devRef .tc main_call0_v2_1)]
  exact Function.update_self ..
theorem W2_of (c : Dev nD) (r : Ref sig .tc) (h : r ∉ ([main_call0_v2_0, main_call0_v2_1] : List (Ref sig .tc))) : W2 m c r = V1 m c r := by
  unfold W2
  rw [Function.update_of_ne (StableHlo.devRef_ne_of_ne (List.ne_of_not_mem_cons (List.not_mem_of_not_mem_cons h)) : (Proc.devRef .tc r : DevRef τ sig) ≠ Proc.devRef .tc main_call0_v2_1),
    Function.update_of_ne (StableHlo.devRef_ne_of_ne (List.ne_of_not_mem_cons h) : (Proc.devRef .tc r : DevRef τ sig) ≠ Proc.devRef .tc main_call0_v2_0)]
theorem W3_v0 (c : Dev nD) : W3 m c main_v0 = (dat1 (R2 m) c).arrAt 3 cfg1.N := by
  unfold W3; exact Function.update_self ..
theorem W3_of (c : Dev nD) (r : Ref sig .tc) (h : r ∉ ([main_v0] : List (Ref sig .tc))) : W3 m c r = W2 m c r := by
  unfold W3
  rw [Function.update_of_ne (StableHlo.devRef_ne_of_ne (List.ne_of_not_mem_cons h) : (Proc.devRef .tc r : DevRef τ sig) ≠ Proc.devRef .tc main_v0)]

/-- An argument array reaches the end as launched: no reshape writes it, no pass may change it. -/
theorem W3_arg (c : Dev nD) (r : Ref sig .tc) (h3 : r ∉ ([main_v0] : List (Ref sig .tc)))
    (h2 : r ∉ ([main_call0_v2_0, main_call0_v2_1] : List (Ref sig .tc))) (h1 : r ∉ (hostOps0_W : List (Ref sig .tc))) :
    W3 m c r = m ((c : Thread nD τ).loc r) :=
  (W3_of m c r h3).trans <| (W2_of m c r h2).trans <| (V1_of m c r h1).trans rfl

/-! ## What each pass leaves, read against the contents after it -/

theorem hF0 (c : Dev nD) : ∀ w : Fin cfg0.W, (dat0 (R1 m) c).arrAt w cfg0.N = R2 m c (Pipeline.arrRef spec0 w) := fun
  | 0 => ((dat0 (R1 m) c).arrAt_in 0 rfl _).trans ((A_eq0 (R1 m) c 0).trans (W2_of m c _ (by decide)).symm)
  | 1 => ((dat0 (R1 m) c).arrAt_in 1 rfl _).trans ((A_eq0 (R1 m) c 1).trans (W2_of m c _ (by decide)).symm)
  | 2 => ((dat0 (R1 m) c).arrAt_in 2 rfl _).trans ((A_eq0 (R1 m) c 2).trans (W2_of m c _ (by decide)).symm)
  | 3 => ((dat0 (R1 m) c).arrAt_in 3 rfl _).trans ((A_eq0 (R1 m) c 3).trans (W2_of m c _ (by decide)).symm)
  | 4 => ((dat0 (R1 m) c).arrAt_in 4 rfl _).trans ((A_eq0 (R1 m) c 4).trans (W2_of m c _ (by decide)).symm)
  | 5 => ((dat0 (R1 m) c).arrAt_in 5 rfl _).trans ((A_eq0 (R1 m) c 5).trans (W2_of m c _ (by decide)).symm)
  | 6 => ((dat0 (R1 m) c).arrAt_in 6 rfl _).trans ((A_eq0 (R1 m) c 6).trans (W2_of m c _ (by decide)).symm)
  | 7 => (W2_v2_0 m c).symm
  | 8 => (W2_v2_1 m c).symm
  | ⟨_ + 9, h⟩ => absurd h (Nat.not_lt.2 (Nat.le_add_left _ _))

theorem hrest0 (c : Dev nD) : ∀ b, b ∉ Finset.univ.image (Pipeline.arrRef spec0) → R2 m c b = R1 m c b := fun b hb =>
  W2_of m c b (fun h => hb (by
    rcases List.mem_cons.mp h with rfl | h
    · exact Finset.mem_image.mpr ⟨7, Finset.mem_univ _, rfl⟩
    · rcases List.mem_cons.mp h with rfl | h
      · exact Finset.mem_image.mpr ⟨8, Finset.mem_univ _, rfl⟩
      · exact absurd h List.not_mem_nil))

theorem hF1 (c : Dev nD) : ∀ w : Fin cfg1.W, (dat1 (R2 m) c).arrAt w cfg1.N = R3 m c (Pipeline.arrRef spec1 w) := fun
  | 0 => ((dat1 (R2 m) c).arrAt_in 0 rfl _).trans ((A_eq1 (R2 m) c 0).trans (W3_of m c _ (by decide)).symm)
  | 1 => ((dat1 (R2 m) c).arrAt_in 1 rfl _).trans ((A_eq1 (R2 m) c 1).trans (W3_of m c _ (by decide)).symm)
  | 2 => ((dat1 (R2 m) c).arrAt_in 2 rfl _).trans ((A_eq1 (R2 m) c 2).trans (W3_of m c _ (by decide)).symm)
  | 3 => (W3_v0 m c).symm
  | ⟨_ + 4, h⟩ => absurd h (Nat.not_lt.2 (Nat.le_add_left _ _))

theorem hrest1 (c : Dev nD) : ∀ b, b ∉ Finset.univ.image (Pipeline.arrRef spec1) → R3 m c b = R2 m c b := fun b hb =>
  W3_of m c b (fun h => hb (by
    rcases List.mem_cons.mp h with rfl | h
    · exact Finset.mem_image.mpr ⟨3, Finset.mem_univ _, rfl⟩
    · exact absurd h List.not_mem_nil))

end Cert.KernelIdeal.Hand

end
-- ==== Proof.KIBody.lean ====
/-
  The body obligations of the two pipelined passes, at any float instance.

  At every point of a pass each input window's current staging buffer holds that window's block of its array — at a
  point where the block is fetched because it was just fetched, elsewhere because the block index has not moved since
  it was. The body loads every input whole, loads each result buffer once (contents nobody names) and then overwrites
  it whole, by ONE store through the whole-buffer rectangle at zero offsets, with a pure function of the loaded inputs.
  A load through that rectangle reads the buffer and a store through it leaves its payload, so after the body every
  input buffer holds its block as before and every result buffer holds that function of the input blocks: what the
  proof data of the passes say.
-/
import proofs.«142810_g53910429499711_cont_9to1_m_389_4_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-2 access, however spelt. -/
theorem zero_off2 : (![0, 0] : Fin 2 → Nat) = fun _ => 0 := funext fun a => by fin_cases a <;> rfl

/-- A load through the whole-buffer rectangle at zero offsets reads what the memref reads. -/
theorem readAt_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-buffer rectangle at zero offsets leaves its payload, whatever was there. -/
theorem read_writes_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-! # First pass -/

/-! ## First pass: each input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

theorem before0_3 (c : Dev nD) (t : Fin cfg0.N) (d) : (dat0 V c).before 3 t d = iblk0 V c 3 t :=
  before0_3_of V (dat0 V c) (A_eq0 V c 3) (after0_3 V c) t d

theorem before0_4 (c : Dev nD) (t : Fin cfg0.N) (d) : (dat0 V c).before 4 t d = iblk0 V c 4 t :=
  before0_4_of V (dat0 V c) (A_eq0 V c 4) (after0_4 V c) t d

theorem before0_5 (c : Dev nD) (t : Fin cfg0.N) (d) : (dat0 V c).before 5 t d = iblk0 V c 5 t :=
  before0_5_of V (dat0 V c) (A_eq0 V c 5) (after0_5 V c) t d

theorem before0_6 (c : Dev nD) (t : Fin cfg0.N) (d) : (dat0 V c).before 6 t d = iblk0 V c 6 t :=
  before0_6_of V (dat0 V c) (A_eq0 V c 6) (after0_6 V c) t d

/-! ## First pass: the body's triple -/

set_option maxHeartbeats 1000000 in
/-- The first pass's body on whole staging memrefs, the seven inputs at read contents `x0 … x6` and the two results at
    anything, runs to the continuation holding the inputs as they were, the first result at the node's own logit
    contribution and the second at what it offers its neighbours, both as functions of the inputs. The body calls one
    part (which loads the inputs, loads and overwrites the first result and returns the second result's value) and then
    loads and overwrites the second result. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S256x16 .f32) (harg6 : arg6.IsWhole)
    (arg7 : Memref sig .tc .vmem S1x16 .f32) (harg7 : arg7.IsWhole) (arg8 : Memref sig .tc .vmem S400x16 .f32) (harg8 : arg8.IsWhole)
    (arg9 : Memref sig .tc .vmem S400x16 .f32) (harg9 : arg9.IsWhole)
    (x0 : Vec F S400x10000 .f32) (x1 : Vec F S10000x128 .f32) (x2 : Vec F S400x128 .f32) (x3 : Vec F S256x128 .f32)
    (x4 : Vec F S1x128 .f32) (x5 : Vec F S256x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k0_pay2 x0 x1 x2 x3 x4 x5 x6)
            ∗ owns (c : Thread nD τ) arg9 fullShare (k0_pay3 x0 x1 x2 x3 x4 x5)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole_zero _ _ zero_off2, readAt_whole_zero _ _ zero_off2, readAt_whole_zero _ _ zero_off2,
      readAt_whole_zero _ _ zero_off2, readAt_whole_zero _ _ zero_off2, readAt_whole_zero _ _ zero_off2,
      readAt_whole_zero _ _ zero_off2, readAt_whole_zero _ _ zero_off2]
  iexists _; isplitr
  swap; · iexact H8
  ipureintro
  rw [read_writes_whole_zero _ _ zero_off2, readAt_whole_zero _ _ zero_off2, readAt_whole_zero _ _ zero_off2,
    readAt_whole_zero _ _ zero_off2, readAt_whole_zero _ _ zero_off2, readAt_whole_zero _ _ zero_off2,
    readAt_whole_zero _ _ zero_off2]

/-! ## First pass: the body obligation -/

/-- What the first pass's body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the seven inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for the first pass, at every point. -/
theorem body_obligation0 (c : Dev nD) : BodyObligation (dat0 (F := F) V c) (defs₀ (F := F)) Variants.none () Set.univ := fun t => by
  rw [bigSep_W0, bigSep_W0]
  exact sound_body0 V c t

/-! # Second pass -/

/-! ## Second pass: each input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

/-! ## Second pass: the body's triple -/

set_option maxHeartbeats 1000000 in
/-- The second pass's body on whole staging memrefs, the three inputs at read contents `x0 x1 x2` and the result at
    anything, runs to the continuation holding the inputs as they were and the result at the log-softmax rows computed
    from them: it loads the inputs, loads the result buffer once and overwrites it whole. -/
theorem sound_kernel1 (c : Dev nD) (E : Set ℕ) (i : grid1.Coords)
    (arg1 : Memref sig .tc .vmem S400x10000 .f32) (harg1 : arg1.IsWhole) (arg2 : Memref sig .tc .vmem S10000x16 .f32) (harg2 : arg2.IsWhole)
    (arg3 : Memref sig .tc .vmem S400x16 .f32) (harg3 : arg3.IsWhole) (arg4 : Memref sig .tc .vmem S400x16 .f32) (harg4 : arg4.IsWhole)
    (x0 : Vec F S400x10000 .f32) (x1 : Vec F S10000x16 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E
          (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_writes_whole_zero _ _ zero_off2, readAt_whole_zero _ _ zero_off2, readAt_whole_zero _ _ zero_off2,
    readAt_whole_zero _ _ zero_off2]

/-! ## Second pass: the body obligation -/

/-- What the second pass's body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second pass, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIShare.lean ====
/-
  The first pass's arrays against the core's unscoped buffers, two of its windows reading ONE array.

  Windows 1 and 2 of the first pass read the feature array, each at half a share; the two halves make the whole
  share, and a points-to at the whole share is the two points-tos at the halves at the same contents. So the pass's
  arrays, every window at contents read off one assignment of the buffers, ARE the distinct buffers behind them,
  each whole at the full share, at that assignment — and the core's unscoped buffers are those and the rest.
-/
import proofs.«142810_g53910429499711_cont_9to1_m_389_4_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The shares the first pass's windows hold their arrays at. -/
theorem share0_0 (c : Dev nD) : (dat0 V c).share 0 = fullShare := rfl
theorem share0_1 (c : Dev nD) : (dat0 V c).share 1 = shareL := rfl
theorem share0_2 (c : Dev nD) : (dat0 V c).share 2 = shareR := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- A buffer whole at the full share is the same buffer at the two halves, at the same contents. -/
theorem pointsTo_halves (c : Dev nD) (b : Ref sig .tc) (f : Buf (Elt F) ((c : Thread nD τ).loc b)) :
    ((((c : Thread nD τ).loc b) ↦{fullShare} f) : sProp 𝕄)
      = iprop((((c : Thread nD τ).loc b) ↦{shareL} f) ∗ (((c : Thread nD τ).loc b) ↦{shareR} f)) :=
  (pointsTo_share share_split).mp.antisymm (pointsTo_share share_split).mpr

/-- Separating conjunction is associative, as an equation. -/
theorem sep_assoc_eq (P Q R : sProp 𝕄) : iprop((P ∗ Q) ∗ R) = iprop(P ∗ Q ∗ R) :=
  (Laws.sep_assoc (P := P) (Q := Q) (R := R)).mp.antisymm (Laws.sep_assoc (P := P) (Q := Q) (R := R)).mpr

/-- The distinct buffers behind the first pass's windows, one by one. -/
theorem arrBufs0_eq (c : Dev nD) (V' : (b : Ref sig .tc) → Buf (Elt F) ((c : Thread nD τ).loc b)) :
    (Pipeline.arrBufs spec0 c V' : sProp 𝕄)
      = iprop((((c : Thread nD τ).loc main_arg1) ↦{fullShare} V' main_arg1) ∗ (((c : Thread nD τ).loc main_arg0) ↦{fullShare} V' main_arg0)
          ∗ (((c : Thread nD τ).loc main_arg2) ↦{fullShare} V' main_arg2) ∗ (((c : Thread nD τ).loc main_call0_v0) ↦{fullShare} V' main_call0_v0)
          ∗ (((c : Thread nD τ).loc main_arg4) ↦{fullShare} V' main_arg4) ∗ (((c : Thread nD τ).loc main_call0_v1) ↦{fullShare} V' main_call0_v1)
          ∗ (((c : Thread nD τ).loc main_call0_v2_0) ↦{fullShare} V' main_call0_v2_0) ∗ (((c : Thread nD τ).loc main_call0_v2_1) ↦{fullShare} V' main_call0_v2_1)) := by
  unfold Pipeline.arrBufs
  exact bigSep_eq_bigSepL_of_eq [main_arg1, main_arg0, main_arg2, main_call0_v0, main_arg4, main_call0_v1, main_call0_v2_0, main_call0_v2_1]
    (by decide) (by decide) _

/-- The first pass's arrays, every window at the contents one assignment `V'` of the buffers gives its array, are the
    distinct buffers behind them at `V'`: the two halves of the shared array join into the whole. -/
theorem arrays0_eq (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    ((dat0 V c).arrays Fw : sProp 𝕄) = Pipeline.arrBufs spec0 c V' := by
  have h1 : ((dat0 V c).arrays Fw : sProp 𝕄) = bigSep Finset.univ fun w : Fin 9 =>
      ((((c : Thread nD τ).loc (Pipeline.arrRef spec0 w)) ↦{(dat0 V c).share w} V' (Pipeline.arrRef spec0 w)) : sProp 𝕄) := by
    unfold Pipeline.Dat.arrays
    exact bigSep_congr fun w _ => by rw [(arr_whole0 w).set_eq_univ, hF w]
  rw [h1, bigSep_W0, arrBufs0_eq, share0_0, share0_1, share0_2, share0_3, share0_4, share0_5, share0_6, share0_7, share0_8]
  rw [pointsTo_halves c main_arg0 (V' main_arg0), sep_assoc_eq]

/-- ENTRY: the core's unscoped buffers at contents `V c` are the first pass's arrays at the contents the pass is
    entered from, and the unscoped rest. -/
theorem arrays0_entry (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c),
    arrays0_eq V c (V c) ((dat0 V c).arrAt · 0) (fun w => A_eq0 V c w)]
  exact .rfl

/-- EXIT: the first pass's arrays at contents `Fw` that one assignment `V'` of the buffers gives, beside the unscoped
    rest as the pass found it, are the core's unscoped buffers at `V'`, `V'` being the old contents off the arrays. -/
theorem arrays0_exit (c : Dev nD) (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w))
    (hrest : ∀ b, b ∉ Finset.univ.image (Pipeline.arrRef spec0) → V' b = V c b) :
    iprop((dat0 V c).arrays Fw ∗ Pipeline.unscopedRest spec0 c (V c)) ⊢ (unscopedBufs c V' : sProp 𝕄) := by
  have hr : (Pipeline.unscopedRest spec0 c (V c) : sProp 𝕄) = Pipeline.unscopedRest spec0 c V' := by
    unfold Pipeline.unscopedRest
    exact bigSep_congr fun b hb => by rw [hrest b (Finset.mem_sdiff.mp hb).2]
  rw [Pipeline.unscopedBufs_split₀ cfgs 0 winFacts₀0.arr_unscoped c V', arrays0_eq V c V' Fw hF, hr]
  exact .rfl

end Cert.KernelIdeal.Hand

end
-- ==== Proof.KIRun.lean ====
/-
  The whole run of the two-pass program, at any float instance: each pass as a segment of the main program entered from
  every unscoped buffer at known contents, and the run's post — the result buffer at what the second pass's write-backs
  leave, every argument as launched.
-/
import proofs.«142810_g53910429499711_cont_9to1_m_389_4_alg».proof.Proof.KIVal
import proofs.«142810_g53910429499711_cont_9to1_m_389_4_alg».proof.Proof.KIBody
import proofs.«142810_g53910429499711_cont_9to1_m_389_4_alg».proof.Proof.KIShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)

/-! ## The passes as segments -/

/-- The reshapes before the first pass as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

set_option backward.isDefEq.respectTransparency.types false in
/-- THE FIRST PASS over the thread state: entered from every unscoped buffer at the contents after the reshapes, left
    with its two result arrays at what the write-backs leave. Its windows' arrays are split out of the unscoped buffers
    — the feature array, read by two windows, at half a share each — and put back at the exit;
    the generator register goes into the pass's invariant and comes out; nothing is owed; the kernel has no semaphore
    of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit : (unscopedBufs c (R1 m c) : sProp 𝕄) ⊢ iprop((pdats m 0 c).arrays ((pdats m 0 c).arrAt · 0) ∗ Pipeline.unscopedRest spec0 c (R1 m c)) := arrays0_entry (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (R1 m c)) ⊢ (unscopedBufs c (R2 m c) : sProp 𝕄) := arrays0_exit (R1 m) c (R2 m c) ((dat0 (R1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS over the thread state: entered from the contents the first pass left, left with the result array at
    what its write-backs leave. Its four arrays are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ R c)
  post c := iprop((StableHlo.held (c : Thread nD τ) (Pipeline.ucRefs τ sig) (W3 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main program as segments, and the launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Launch

/-- The main program's three segments in order: the reshapes, the first pass, the second pass. -/
abbrev psegs : List (Pipeline.Seg (pcfgs (F := F)) adm (pdats m) () defs₀ 𝒱₀ L lv) :=
  [ .host (hseg0 m), .region (reg0 m), .region (reg1 m) ]

theorem main_run (c : Dev nD) : main (F := F) c = Pipeline.Seg.run (psegs m) := (main_chain c).trans (by chain_rfl)

set_option backward.isDefEq.respectTransparency.types false in
/-- THE RUN, at any float instance: from any memory with zero counters every weakly fair execution of the main program
    terminates, nothing faulting; the result buffer ends at what the second pass's write-backs leave of the contents
    the first pass left, and every argument array ends as launched. -/
theorem run_main : θ_run defs (onTc (τ := τ) (main (F := F))) ⟨m, fun _ => 0, ρ⟩ (fun r => ∀ c : Dev nD,
      r.2.mem ((c.tc : Thread nD τ).loc main_v0) = (dat1 (R2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v0 (by decide))).trans (W3_v0 m c),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide))⟩)

end Launch

end Cert.KernelIdeal.Hand

end
-- ==== Proof.Spec.lean ====
/-
  The mathematics both programs compute, row by row, on the extended reals.

  A graph of 10000 nodes with a dense weight matrix `adj`; node features of width 128. One mean-aggregation layer
  sends a node's features `x i` and the weighted mean of all nodes' features, `(∑ j, adj i j · x j) / deg i` with
  `deg i = max (∑ j, adj i j) ε`, through a linear map on their concatenation plus a bias. Two such layers, a
  rectifier between them, a row-wise log-softmax at the end.

  The kernel's arrangement splits each 256-row weight matrix into its upper and lower 128 rows and, in the
  second layer, multiplies by the lower half of the weights BEFORE aggregating over the neighbours
  (`kernelOut`); the reference concatenates and aggregates first (`refOut`).
-/
import Idealize.ShloMosaic.PureOps.Ideal
import Idealize.ShloMosaic.Lib.ValueIdx

noncomputable section

open scoped BigOperators

namespace Cert.Spec

open Idealize.ShloMosaic Idealize.ShloMosaic.ValueIdx

/-- The floor of a degree: the single-precision word nearest 1e-12, read exactly. -/
def eps : EReal := Ideal.ofBits .f32 0x2B8CBCCC#32

/-- Row `j` of the upper half of a 256-row matrix. -/
def lo128 (j : Fin 128) : Fin 256 := ⟨j.val, by omega⟩
/-- Row `j` of its lower half. -/
def hi128 (j : Fin 128) : Fin 256 := ⟨128 + j.val, by omega⟩

/-- A node's degree from its row of weights, floored at `eps`. -/
def deg (a : Fin 10000 → EReal) : EReal := max (∑ j, a j) eps

/-- The weighted mean over all nodes of column `k` of `X`, for the node whose row of weights is `a`. -/
def mean (a : Fin 10000 → EReal) {n : Nat} (X : Fin 10000 → Fin n → EReal) (k : Fin n) : EReal :=
  Ideal.div (∑ j, a j * X j k) (deg a)

/-- The hidden layer of one node, in the split arrangement: its own features through the upper half of `W1`, the
    neighbourhood mean through the lower half, the bias, the rectifier. -/
def hid (a : Fin 10000 → EReal) (X : Fin 10000 → Fin 128 → EReal) (xs : Fin 128 → EReal)
    (W1 : Fin 256 → Fin 128 → EReal) (b1 : Fin 128 → EReal) (k : Fin 128) : EReal :=
  max (((∑ j, xs j * W1 (lo128 j) k) + (∑ j, mean a X j * W1 (hi128 j) k)) + b1 k) 0

/-- A node's own contribution to its logits: the hidden row through the upper half of `W2`, plus the bias. -/
def yself (h : Fin 128 → EReal) (W2 : Fin 256 → Fin 16 → EReal) (b2 : Fin 16 → EReal) (c : Fin 16) : EReal :=
  (∑ k, h k * W2 (lo128 k) c) + b2 c

/-- What a node offers its neighbours: the hidden row through the lower half of `W2`. -/
def yneigh (h : Fin 128 → EReal) (W2 : Fin 256 → Fin 16 → EReal) (c : Fin 16) : EReal :=
  ∑ k, h k * W2 (hi128 k) c

/-- The largest of a row of 16 logits (`⊥` being the neutral element of `max`). -/
def rowMax (l : Fin 16 → EReal) : EReal := Finset.univ.sup l

/-- The log-softmax of a row of 16 logits, shifted by the row's maximum. -/
def logSoftmax (l : Fin 16 → EReal) (c : Fin 16) : EReal :=
  (l c - rowMax l) - Ideal.log (∑ c', Ideal.exp (l c' - rowMax l))

/-- The kernel's first pass for one node: the hidden row from the node's row of weights and its own features. -/
def hidAll (adj : Fin 10000 → Fin 10000 → EReal) (X : Fin 10000 → Fin 128 → EReal)
    (W1 : Fin 256 → Fin 128 → EReal) (b1 : Fin 128 → EReal) (i : Fin 10000) : Fin 128 → EReal :=
  hid (adj i) X (X i) W1 b1

/-- The kernel's result: the second pass aggregates the 16-wide `yneigh` rows over the neighbours. -/
def kernelOut (adj : Fin 10000 → Fin 10000 → EReal) (X : Fin 10000 → Fin 128 → EReal)
    (W1 : Fin 256 → Fin 128 → EReal) (b1 : Fin 128 → EReal) (W2 : Fin 256 → Fin 16 → EReal) (b2 : Fin 16 → EReal)
    (i : Fin 10000) (c : Fin 16) : EReal :=
  logSoftmax (fun c => yself (hidAll adj X W1 b1 i) W2 b2 c
    + mean (adj i) (fun j c => yneigh (hidAll adj X W1 b1 j) W2 c) c) c

/-- Two rows of width 128 side by side. -/
def cat (u v : Fin 128 → EReal) (k : Fin 256) : EReal :=
  if h : k.val < 128 then u ⟨k.val, h⟩ else v ⟨k.val - 128, by omega⟩

/-- A linear map on the concatenation of two rows, plus a bias. -/
def layer (u v : Fin 128 → EReal) {n : Nat} (W : Fin 256 → Fin n → EReal) (b : Fin n → EReal) (c : Fin n) : EReal :=
  (∑ k, cat u v k * W k c) + b c

/-- The reference's hidden layer. -/
def refHid (adj : Fin 10000 → Fin 10000 → EReal) (X : Fin 10000 → Fin 128 → EReal)
    (W1 : Fin 256 → Fin 128 → EReal) (b1 : Fin 128 → EReal) (i : Fin 10000) (k : Fin 128) : EReal :=
  max (layer (X i) (mean (adj i) X) W1 b1 k) 0

/-- The reference's result: aggregate the 128-wide hidden rows, then the linear map on the concatenation. -/
def refOut (adj : Fin 10000 → Fin 10000 → EReal) (X : Fin 10000 → Fin 128 → EReal)
    (W1 : Fin 256 → Fin 128 → EReal) (b1 : Fin 128 → EReal) (W2 : Fin 256 → Fin 16 → EReal) (b2 : Fin 16 → EReal)
    (i : Fin 10000) (c : Fin 16) : EReal :=
  logSoftmax (layer (refHid adj X W1 b1 i) (mean (adj i) (refHid adj X W1 b1)) W2 b2) c

/-! ## Arrays as functions of coordinates -/

/-- A rank-2 array as a function of its two coordinates. -/
abbrev mat {n0 n1 : Nat} (v : (⟨2, ![n0, n1]⟩ : Shape).Idx → EReal) (i : Fin n0) (j : Fin n1) : EReal := v (ix2 i j)
/-- Row `r` of a rank-2 array. -/
abbrev row {n0 n1 : Nat} (v : (⟨2, ![n0, n1]⟩ : Shape).Idx → EReal) (r : Fin n0) (j : Fin n1) : EReal := v (ix2 r j)
/-- A rank-1 array as a function of its coordinate. -/
abbrev vec {n : Nat} (v : (⟨1, ![n]⟩ : Shape).Idx → EReal) (k : Fin n) : EReal := v (ix1 k)
/-- The one row of a [1, n] array. -/
abbrev row0 {n : Nat} (v : (⟨2, ![1, n]⟩ : Shape).Idx → EReal) (k : Fin n) : EReal := v (ix2 (0 : Fin 1) k)

end Cert.Spec

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.Payload.lean ====
/-
  The kernel's arithmetic, read at an index, over the extended reals.

  The first pass computes, for a block of 400 nodes, the hidden rows (the node's own features through the
  upper half of the first weight matrix, the neighbourhood mean through the lower half, the bias, the
  rectifier) and from them two 16-wide blocks: the node's own contribution to its logits and what it offers
  its neighbours. The second pass aggregates the offered rows over the neighbours, adds the own
  contribution and takes the row-wise log-softmax. Each stored block is one pure term of the loaded blocks;
  here each is read at an entry (r, c) and found to be the specification's function of the rows involved.

  The steps: a lane sum and a lane maximum as a sum and a supremum over the row; the kept-axis column
  [400] -> [400, 1] -> [400, n]; the bias row [1, n] -> [400, n]; the two halves of a 256-row matrix; a
  product into the zero accumulator as a sum over the contracted index.
-/
import proofs.«142810_g53910429499711_cont_9to1_m_389_4_alg».proof.Proof.Gen.KernelIdeal.Skeleton
import proofs.«142810_g53910429499711_cont_9to1_m_389_4_alg».proof.Proof.Spec
import proofs.«142810_g53910429499711_cont_9to1_m_389_4_alg».proof.Proof.LibDenseBlock
import proofs.«142810_g53910429499711_cont_9to1_m_389_4_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx
open Idealize.ShloMosaic.DenseBlock Idealize.ShloMosaic.Column

/-! ## Reductions along a row -/

/-- Inserting the lane coordinate `j` into the row index `r` gives the entry `(r, j)`. -/
theorem lift_row {n : Nat} (h : (⟨2, ![400, n]⟩ : Shape).Reduces [1] ⟨1, ![400]⟩) (r : Fin 400) (j : Fin n) :
    h.lift (ix1 r) j = ix2 r j :=
  funext fun a => Fin.ext (by
    match a with
    | ⟨0, _⟩ => rfl
    | ⟨1, _⟩ => rfl)

/-- The lane sum of a `[400, n]` block into the zero accumulator, at row `r`: the sum of the row. -/
theorem laneSum_apply {n : Nat} (x : FVec Ideal ⟨2, ![400, n]⟩ .f32)
    (h : (⟨2, ![400, n]⟩ : Shape).Reduces [1] ⟨1, ![400]⟩) (hφ : FKind.Formats .f32)
    (hacc : (0x00000000#32 : BitVec 32) = 0x00000000#32) (r : Fin 400) :
    multiReduction (F := Ideal) .add [1] ⟨1, ![400]⟩ x 0x00000000#32 h hφ hacc (ix1 r) = ∑ j : Fin n, x (ix2 r j) := by
  refine (Ideal.multiReduction_add_single x 0x00000000#32 h hφ hacc (ix1 r)).trans ?_
  exact Finset.sum_congr rfl fun j _ => congrArg x (lift_row h r j)

/-- The word of the lane maximum's accumulator is the least extended real. -/
theorem ofBits_negInf : Ideal.ofBits .f32 0xFF800000#32 = ⊥ := by simp [Ideal.ofBits, Ideal.ieee]

/-- The lane maximum of a `[400, 16]` block from the least element, at row `r`: the supremum of the row. -/
theorem laneMax_apply (x : FVec Ideal ⟨2, ![400, 16]⟩ .f32)
    (h : (⟨2, ![400, 16]⟩ : Shape).Reduces [1] ⟨1, ![400]⟩) (hφ : FKind.Formats .f32)
    (hacc : (0xFF800000#32 : BitVec 32) = 0xFF800000#32) (r : Fin 400) :
    multiReduction (F := Ideal) .maximumf [1] ⟨1, ![400]⟩ x 0xFF800000#32 h hφ hacc (ix1 r)
      = rowMax (fun c => x (ix2 r c)) := by
  refine (Ideal.multiReduction_maximumf_single x 0xFF800000#32 h hφ hacc (ix1 r)).trans ?_
  have hf : (x ∘ h.lift (ix1 r)) = fun c : Fin 16 => x (ix2 r c) := funext fun c => congrArg x (lift_row h r c)
  rw [hf]
  show Finset.fold max (Ideal.ofBits .f32 0xFF800000#32) (fun c : Fin 16 => x (ix2 r c)) Finset.univ = _
  rw [ofBits_negInf]
  rfl

/-! ## The pointwise operations the library has no index lemma for -/

/-- The exponential of a block, at an index. -/
theorem exp_apply {s : Shape} {φ : FTy} (a : FVec Ideal s φ) (i : s.Idx) : exp a i = Ideal.exp (a i) := rfl

/-- The logarithm of a block, at an index. -/
theorem log_apply {s : Shape} {φ : FTy} (a : FVec Ideal s φ) (i : s.Idx) : log a i = Ideal.log (a i) := rfl

/-- A splat of a single-precision word, at an index. -/
theorem splat_apply {s : Shape} (w : BitVec 32) (i : s.Idx) :
    broadcast s (Scalar.ofBits (F := Ideal) .f32 w) i = Ideal.ofBits .f32 w := rfl

/-! ## The two halves of a 256-row matrix -/

/-- The cut of rows 0..127 reads, at `(j, e)`, the matrix at row `lo128 j`. -/
theorem sliceLo_apply {n : Nat} (X : (⟨2, ![256, n]⟩ : Shape).Idx → EReal)
    (h : (⟨2, ![256, n]⟩ : Shape).Slices ![0, 0] ⟨2, ![128, n]⟩) (j : Fin 128) (e : Fin n) :
    extractStridedSlice ⟨2, ![128, n]⟩ ![0, 0] X h (ix2 j e) = X (ix2 (lo128 j) e) :=
  slice2_axis0_apply 0 X h j e (lo128 j) (Nat.zero_add _).symm

/-- The cut of rows 128..255 reads, at `(j, e)`, the matrix at row `hi128 j`. -/
theorem sliceHi_apply {n : Nat} (X : (⟨2, ![256, n]⟩ : Shape).Idx → EReal)
    (h : (⟨2, ![256, n]⟩ : Shape).Slices ![128, 0] ⟨2, ![128, n]⟩) (j : Fin 128) (e : Fin n) :
    extractStridedSlice ⟨2, ![128, n]⟩ ![128, 0] X h (ix2 j e) = X (ix2 (hi128 j) e) :=
  slice2_axis0_apply 128 X h j e (hi128 j) rfl

/-! ## The four products -/

/-- The weights times the features, `[400, 10000] · [10000, 128]`. -/
theorem mmAdjX_apply {φ₁ φ₂ : FTy} (l : FVec Ideal S400x10000 φ₁) (w : FVec Ideal S10000x128 φ₂) (p : Fin 400) (q : Fin 128) :
    matmul dot_S400x10000_S10000x128_S400x128_1_0_0_1_n_n none l w (constant (F := Ideal) S400x128 .f32 0x00000000#32) (ix2 p q)
      = ∑ n : Fin 10000, l (ix2 p n) * w (ix2 n q) :=
  matmul_zero_apply Facts₀.dot_S400x10000_S10000x128_S400x128_1_0_0_1_n_n_wf l w p q

/-- A 128-wide block times a half of the first weight matrix, `[400, 128] · [128, 128]`. -/
theorem mmW1_apply {φ₁ φ₂ : FTy} (l : FVec Ideal S400x128 φ₁) (w : FVec Ideal S128x128 φ₂) (p : Fin 400) (q : Fin 128) :
    matmul dot_S400x128_S128x128_S400x128_1_0_0_1_n_n none l w (constant (F := Ideal) S400x128 .f32 0x00000000#32) (ix2 p q)
      = ∑ n : Fin 128, l (ix2 p n) * w (ix2 n q) :=
  matmul_zero_apply Facts₀.dot_S400x128_S128x128_S400x128_1_0_0_1_n_n_wf l w p q

/-- The hidden block times a half of the second weight matrix, `[400, 128] · [128, 16]`. -/
theorem mmW2_apply {φ₁ φ₂ : FTy} (l : FVec Ideal S400x128 φ₁) (w : FVec Ideal S128x16 φ₂) (p : Fin 400) (q : Fin 16) :
    matmul dot_S400x128_S128x16_S400x16_1_0_0_1_n_n none l w (constant (F := Ideal) S400x16 .f32 0x00000000#32) (ix2 p q)
      = ∑ n : Fin 128, l (ix2 p n) * w (ix2 n q) :=
  matmul_zero_apply Facts₀.dot_S400x128_S128x16_S400x16_1_0_0_1_n_n_wf l w p q

/-- The weights times the offered rows, `[400, 10000] · [10000, 16]`. -/
theorem mmAdjY_apply {φ₁ φ₂ : FTy} (l : FVec Ideal S400x10000 φ₁) (w : FVec Ideal S10000x16 φ₂) (p : Fin 400) (q : Fin 16) :
    matmul dot_S400x10000_S10000x16_S400x16_1_0_0_1_n_n none l w (constant (F := Ideal) S400x16 .f32 0x00000000#32) (ix2 p q)
      = ∑ n : Fin 10000, l (ix2 p n) * w (ix2 n q) :=
  matmul_zero_apply Facts₀.dot_S400x10000_S10000x16_S400x16_1_0_0_1_n_n_wf l w p q

/-! ## The degree column and the mean block -/

/-- The degree column `[400, 1]`: the lane sum of the weights kept as a column, floored at `eps`. -/
theorem degCol_apply (x : FVec Ideal S400x10000 .f32) (h : S400x10000.Reduces [1] S400) (hφ : FKind.Formats .f32)
    (hacc : (0x00000000#32 : BitVec 32) = 0x00000000#32) (hc : S400.ShapeCasts S400x1) (r : Fin 400) (u : Fin 1) :
    maximumf (shapeCast S400x1 (multiReduction (F := Ideal) .add [1] S400 x 0x00000000#32 h hφ hacc) hc)
        (broadcast S400x1 (Scalar.ofBits (F := Ideal) .f32 0x2B8CBCCC#32)) (ix2 r u)
      = deg (row x r) := by
  rw [maximumf_apply, splat_apply, shapeCast_a_a1_apply _ hc r u, laneSum_apply x h hφ hacc r]
  rfl

/-- A block of sums over the neighbours divided by the degree column laid along every lane: the weighted mean. -/
theorem meanBlock_apply {n : Nat} (x : FVec Ideal S400x10000 .f32) (Y : (⟨2, ![10000, n]⟩ : Shape).Idx → EReal)
    (M : FVec Ideal ⟨2, ![400, n]⟩ .f32) (D : FVec Ideal S400x1 .f32) (hb : S400x1.Broadcasts ⟨2, ![400, n]⟩)
    (r : Fin 400) (c : Fin n) (hM : M (ix2 r c) = ∑ j : Fin 10000, x (ix2 r j) * Y (ix2 j c))
    (hD : D (ix2 r (0 : Fin 1)) = deg (row x r)) :
    divf M (broadcastTo ⟨2, ![400, n]⟩ D hb) (ix2 r c) = mean (row x r) (mat Y) c := by
  rw [divf_apply, broadcastTo_a1_ab_apply D hb r c, hM, hD]
  rfl

/-! ## The first pass -/

/-- The hidden block at `(r, k)`: the specification's hidden row of the node in row `r`. -/
theorem pay1_apply (v0 : Vec Ideal S400x10000 .f32) (v1 : Vec Ideal S10000x128 .f32) (v11 : Vec Ideal S400x128 .f32)
    (v12 : Vec Ideal S256x128 .f32) (v18 : Vec Ideal S1x128 .f32) (r : Fin 400) (k : Fin 128) :
    k0_pay1 (F := Ideal) v0 v1 v11 v12 v18 (ix2 r k)
      = hid (row v0 r) (mat v1) (row v11 r) (mat v12) (row0 v18) k := by
  unfold k0_pay1
  simp only [maximumf_apply, addf_apply, subf_apply, divf_apply, truncf_apply, exp_apply, log_apply, splat_apply, mmW1_apply,
    mmW2_apply, mmAdjX_apply, mmAdjY_apply, sliceLo_apply, sliceHi_apply, shapeCast_self, broadcastTo_1b_ab_apply,
    broadcastTo_a1_ab_apply, shapeCast_a_a1_apply, Ideal.ofBits_zero_f32]
  rw [laneSum_apply]
  rfl

/-- The block stored to the first output at `(r, c)`: the node's own contribution to its logits. -/
theorem pay2_apply (v0 : Vec Ideal S400x10000 .f32) (v1 : Vec Ideal S10000x128 .f32) (v11 : Vec Ideal S400x128 .f32)
    (v12 : Vec Ideal S256x128 .f32) (v18 : Vec Ideal S1x128 .f32) (v24 : Vec Ideal S256x16 .f32) (v27 : Vec Ideal S1x16 .f32)
    (r : Fin 400) (c : Fin 16) :
    k0_pay2 (F := Ideal) v0 v1 v11 v12 v18 v24 v27 (ix2 r c)
      = yself (hid (row v0 r) (mat v1) (row v11 r) (mat v12) (row0 v18)) (mat v24) (row0 v27) c := by
  unfold k0_pay2
  simp only [addf_apply, mmW2_apply, sliceLo_apply, shapeCast_self, broadcastTo_1b_ab_apply, pay1_apply]
  rfl

/-- The block stored to the second output at `(r, c)`: what the node offers its neighbours. -/
theorem pay3_apply (v0 : Vec Ideal S400x10000 .f32) (v1 : Vec Ideal S10000x128 .f32) (v11 : Vec Ideal S400x128 .f32)
    (v12 : Vec Ideal S256x128 .f32) (v18 : Vec Ideal S1x128 .f32) (v24 : Vec Ideal S256x16 .f32) (r : Fin 400) (c : Fin 16) :
    k0_pay3 (F := Ideal) v0 v1 v11 v12 v18 v24 (ix2 r c)
      = yneigh (hid (row v0 r) (mat v1) (row v11 r) (mat v12) (row0 v18)) (mat v24) c := by
  unfold k0_pay3
  simp only [mmW2_apply, sliceHi_apply, pay1_apply]
  rfl

/-! ## The second pass -/

/-- The block the second pass stores at `(r, c)`: the log-softmax of the row of logits, each the own contribution plus
    the weighted mean of the offered rows. -/
theorem pass2_apply (v0 : Vec Ideal S400x10000 .f32) (v5 : Vec Ideal S10000x16 .f32) (v8 : Vec Ideal S400x16 .f32)
    (r : Fin 400) (c : Fin 16) :
    k1_pay1 (F := Ideal) v0 v5 v8 (ix2 r c)
      = logSoftmax (fun c' => v8 (ix2 r c') + mean (row v0 r) (mat v5) c') c := by
  unfold k1_pay1
  repeat (first
    | rw [laneSum_apply]
    | rw [laneMax_apply]
    | simp only [maximumf_apply, addf_apply, subf_apply, divf_apply, truncf_apply, exp_apply, log_apply, splat_apply, mmW1_apply,
    mmW2_apply, mmAdjX_apply, mmAdjY_apply, sliceLo_apply, sliceHi_apply, shapeCast_self, broadcastTo_1b_ab_apply,
    broadcastTo_a1_ab_apply, shapeCast_a_a1_apply, Ideal.ofBits_zero_f32])
  rfl

end Cert.KernelIdeal.Pay

end
-- ==== Proof.KIFinal.lean ====
/-
  From blocks to arrays: each result array of the two pipelined passes, after the pass, as ONE function of the pass's
  input arrays, index by index, on the extended reals.

  A pass walks 25 row blocks of 400 rows. At block `t` the row-blocked windows hold rows 400·t … 400·t+399 of their
  arrays and the other windows hold their whole arrays; the point writes back block `t` of each result, and what it
  writes at row `r` of the block is the payload's value at that row, which depends on the inputs only through row
  400·t + r of the row-blocked arrays and through the whole arrays. So every point writes a block of ONE function of
  the input arrays, and since row `r` of a result lies in block `r / 400`, the blocks cover the result: the result
  is that function.
-/
import proofs.«142810_g53910429499711_cont_9to1_m_389_4_alg».proof.Proof.KIData
import proofs.«142810_g53910429499711_cont_9to1_m_389_4_alg».proof.Proof.Spec
import proofs.«142810_g53910429499711_cont_9to1_m_389_4_alg».proof.Proof.Payload
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)
open Cert.Spec Idealize.ShloMosaic.ValueIdx

variable (V : (c : Dev nD) → (b : Ref sig .tc) → Buf (Elt Ideal) ((c : Thread nD τ).loc b))

/-! ## First pass: where each window's block sits -/

/-- The printed index maps over the 25 grid points: the row-blocked windows sit at block `t` on axis 0, every
    other block index is zero. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Window 0's block at point `t` is rows `400 t … 400 t + 399` of the weights. -/
theorem iblk0_0_apply (c : Dev nD) (t : Fin cfg0.N) (x : S400x10000.Idx) (k : S10000x10000.Idx)
    (hk0 : (k 0).val = 400 * t.val + (x 0).val) (hk1 : (k 1).val = (x 1).val) :
    (iblk0 V c 0 t : Vec Ideal S400x10000 .f32) x = (V c main_arg1 : S10000x10000.Idx → EReal) k := by
  have hi := index0 t
  unfold iblk0
  rw [View.read_apply]
  show V c main_arg1 _ = V c main_arg1 _
  congr 1
  funext a
  apply Fin.ext
  match a with
  | ⟨0, _⟩ => show win0_0.index t (0 : Fin 2) * 400 + 1 * (x 0).val = (k 0).val; omega
  | ⟨1, _⟩ => show win0_0.index t (1 : Fin 2) * 10000 + 1 * (x 1).val = (k 1).val; omega

/-- Window 1's block is the whole feature array at every point; so for the other whole-array windows. -/
theorem iblk0_1_eq (c : Dev nD) (t : Fin cfg0.N) :
    (iblk0 V c 1 t : Vec Ideal S10000x128 .f32) = (V c main_arg0 : S10000x128.Idx → EReal) := by
  have hi := index0 t
  funext x
  unfold iblk0
  rw [View.read_apply]
  show V c main_arg0 _ = V c main_arg0 _
  congr 1
  funext a
  apply Fin.ext
  match a with
  | ⟨0, _⟩ => show win0_1.index t (0 : Fin 2) * 10000 + 1 * (x 0).val = (x 0).val; omega
  | ⟨1, _⟩ => show win0_1.index t (1 : Fin 2) * 128 + 1 * (x 1).val = (x 1).val; omega

/-- Window 2's block at point `t` is rows `400 t … 400 t + 399` of the features. -/
theorem iblk0_2_apply (c : Dev nD) (t : Fin cfg0.N) (x : S400x128.Idx) (k : S10000x128.Idx)
    (hk0 : (k 0).val = 400 * t.val + (x 0).val) (hk1 : (k 1).val = (x 1).val) :
    (iblk0 V c 2 t : Vec Ideal S400x128 .f32) x = (V c main_arg0 : S10000x128.Idx → EReal) k := by
  have hi := index0 t
  unfold iblk0
  rw [View.read_apply]
  show V c main_arg0 _ = V c main_arg0 _
  congr 1
  funext a
  apply Fin.ext
  match a with
  | ⟨0, _⟩ => show win0_2.index t (0 : Fin 2) * 400 + 1 * (x 0).val = (k 0).val; omega
  | ⟨1, _⟩ => show win0_2.index t (1 : Fin 2) * 128 + 1 * (x 1).val = (k 1).val; omega

theorem iblk0_3_eq (c : Dev nD) (t : Fin cfg0.N) :
    (iblk0 V c 3 t : Vec Ideal S256x128 .f32) = (V c main_arg2 : S256x128.Idx → EReal) := by
  have hi := index0 t
  funext x
  unfold iblk0
  rw [View.read_apply]
  show V c main_arg2 _ = V c main_arg2 _
  congr 1
  funext a
  apply Fin.ext
  match a with
  | ⟨0, _⟩ => show win0_3.index t (0 : Fin 2) * 256 + 1 * (x 0).val = (x 0).val; omega
  | ⟨1, _⟩ => show win0_3.index t (1 : Fin 2) * 128 + 1 * (x 1).val = (x 1).val; omega

theorem iblk0_4_eq (c : Dev nD) (t : Fin cfg0.N) :
    (iblk0 V c 4 t : Vec Ideal S1x128 .f32) = (V c main_call0_v0 : S1x128.Idx → EReal) := by
  have hi := index0 t
  funext x
  unfold iblk0
  rw [View.read_apply]
  show V c main_call0_v0 _ = V c main_call0_v0 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem iblk0_5_eq (c : Dev nD) (t : Fin cfg0.N) :
    (iblk0 V c 5 t : Vec Ideal S256x16 .f32) = (V c main_arg4 : S256x16.Idx → EReal) := by
  have hi := index0 t
  funext x
  unfold iblk0
  rw [View.read_apply]
  show V c main_arg4 _ = V c main_arg4 _
  congr 1
  funext a
  apply Fin.ext
  match a with
  | ⟨0, _⟩ => show win0_5.index t (0 : Fin 2) * 256 + 1 * (x 0).val = (x 0).val; omega
  | ⟨1, _⟩ => show win0_5.index t (1 : Fin 2) * 16 + 1 * (x 1).val = (x 1).val; omega

theorem iblk0_6_eq (c : Dev nD) (t : Fin cfg0.N) :
    (iblk0 V c 6 t : Vec Ideal S1x16 .f32) = (V c main_call0_v1 : S1x16.Idx → EReal) := by
  have hi := index0 t
  funext x
  unfold iblk0
  rw [View.read_apply]
  show V c main_call0_v1 _ = V c main_call0_v1 _
  congr 1
  funext a
  apply Fin.ext
  match a with
  | ⟨0, _⟩ => show win0_6.index t (0 : Fin 2) * 1 + 1 * (x 0).val = (x 0).val; omega
  | ⟨1, _⟩ => show win0_6.index t (1 : Fin 2) * 16 + 1 * (x 1).val = (x 1).val; omega

/-! ## First pass: what a point writes back, over plain arrays -/

/-- A row of a row block is the row of the array it was cut from. -/
theorem row_of_block {n : Nat} (A : (⟨2, ![10000, n]⟩ : Shape).Idx → EReal) (v : (⟨2, ![400, n]⟩ : Shape).Idx → EReal)
    (p : Nat)
    (h : ∀ (x : (⟨2, ![400, n]⟩ : Shape).Idx) (k : (⟨2, ![10000, n]⟩ : Shape).Idx),
      (k 0).val = 400 * p + (x 0).val → (k 1).val = (x 1).val → v x = A k)
    (r : Fin 400) (r' : Fin 10000) (hr : r'.val = 400 * p + r.val) : row v r = row A r' :=
  funext fun k => h (ix2 r k) (ix2 r' k) hr rfl

/-- The own-logit payload at an element of block `p`, over the arrays the blocks were cut from. -/
theorem pay2_block (A1 : S10000x10000.Idx → EReal) (A0 : S10000x128.Idx → EReal) (A2 : S256x128.Idx → EReal)
    (B0 : S1x128.Idx → EReal) (A4 : S256x16.Idx → EReal) (B1 : S1x16.Idx → EReal) (p : Nat)
    (v0 : Vec Ideal S400x10000 .f32) (v1 : Vec Ideal S10000x128 .f32) (v11 : Vec Ideal S400x128 .f32)
    (v12 : Vec Ideal S256x128 .f32) (v18 : Vec Ideal S1x128 .f32) (v24 : Vec Ideal S256x16 .f32)
    (v27 : Vec Ideal S1x16 .f32)
    (h0 : ∀ (x : S400x10000.Idx) (k : S10000x10000.Idx),
      (k 0).val = 400 * p + (x 0).val → (k 1).val = (x 1).val → v0 x = A1 k)
    (h1 : v1 = A0)
    (h11 : ∀ (x : S400x128.Idx) (k : S10000x128.Idx),
      (k 0).val = 400 * p + (x 0).val → (k 1).val = (x 1).val → v11 x = A0 k)
    (h12 : v12 = A2) (h18 : v18 = B0) (h24 : v24 = A4) (h27 : v27 = B1)
    (j : S400x16.Idx) (i : S10000x16.Idx) (hi0 : (i 0).val = 400 * p + (j 0).val) (hi1 : (i 1).val = (j 1).val) :
    k0_pay2 (F := Ideal) v0 v1 v11 v12 v18 v24 v27 j
      = yself (hid (row A1 (i 0)) (mat A0) (row A0 (i 0)) (mat A2) (row0 B0)) (mat A4) (row0 B1) (i 1) := by
  subst h1 h12 h18 h24 h27
  obtain ⟨r, q, rfl⟩ : ∃ (r : Fin 400) (q : Fin 16), j = ix2 r q := ⟨j 0, j 1, eq_ix2 j⟩
  obtain ⟨r', q', rfl⟩ : ∃ (r' : Fin 10000) (q' : Fin 16), i = ix2 r' q' := ⟨i 0, i 1, eq_ix2 i⟩
  obtain rfl : q' = q := Fin.ext hi1
  rw [pay2_apply, row_of_block A1 v0 p h0 r r' hi0, row_of_block v1 v11 p h11 r r' hi0]

/-- The offered-logit payload at an element of block `p`, over the arrays the blocks were cut from. -/
theorem pay3_block (A1 : S10000x10000.Idx → EReal) (A0 : S10000x128.Idx → EReal) (A2 : S256x128.Idx → EReal)
    (B0 : S1x128.Idx → EReal) (A4 : S256x16.Idx → EReal) (p : Nat)
    (v0 : Vec Ideal S400x10000 .f32) (v1 : Vec Ideal S10000x128 .f32) (v11 : Vec Ideal S400x128 .f32)
    (v12 : Vec Ideal S256x128 .f32) (v18 : Vec Ideal S1x128 .f32) (v24 : Vec Ideal S256x16 .f32)
    (h0 : ∀ (x : S400x10000.Idx) (k : S10000x10000.Idx),
      (k 0).val = 400 * p + (x 0).val → (k 1).val = (x 1).val → v0 x = A1 k)
    (h1 : v1 = A0)
    (h11 : ∀ (x : S400x128.Idx) (k : S10000x128.Idx),
      (k 0).val = 400 * p + (x 0).val → (k 1).val = (x 1).val → v11 x = A0 k)
    (h12 : v12 = A2) (h18 : v18 = B0) (h24 : v24 = A4)
    (j : S400x16.Idx) (i : S10000x16.Idx) (hi0 : (i 0).val = 400 * p + (j 0).val) (hi1 : (i 1).val = (j 1).val) :
    k0_pay3 (F := Ideal) v0 v1 v11 v12 v18 v24 j
      = yneigh (hid (row A1 (i 0)) (mat A0) (row A0 (i 0)) (mat A2) (row0 B0)) (mat A4) (i 1) := by
  subst h1 h12 h18 h24
  obtain ⟨r, q, rfl⟩ : ∃ (r : Fin 400) (q : Fin 16), j = ix2 r q := ⟨j 0, j 1, eq_ix2 j⟩
  obtain ⟨r', q', rfl⟩ : ∃ (r' : Fin 10000) (q' : Fin 16), i = ix2 r' q' := ⟨i 0, i 1, eq_ix2 i⟩
  obtain rfl : q' = q := Fin.ext hi1
  rw [pay3_apply, row_of_block A1 v0 p h0 r r' hi0, row_of_block v1 v11 p h11 r r' hi0]

/-! ## First pass: the two result arrays -/

/-- What point `t` writes back to the own-logit array is block `t` of one function of the pass's input arrays. -/
theorem flushed0_7_eq (c : Dev nD) (t : Fin cfg0.N) :
    (dat0 (F := Ideal) V c).flushed 7 t = ((cfg0.win 7).blk t).view.read (Elt Ideal)
      (fun i => yself (hid (row (V c main_arg1) (i 0)) (mat (V c main_arg0)) (row (V c main_arg0) (i 0))
        (mat (V c main_arg2)) (row0 (V c main_call0_v0))) (mat (V c main_arg4)) (row0 (V c main_call0_v1)) (i 1)) := by
  have hi := index0 t
  show (cfg0.win 7).cut (grid0.coords t) ((dat0 V c).after 7 t) = _
  rw [after0_7]
  funext j
  rw [View.read_apply]
  exact pay2_block (V c main_arg1) (V c main_arg0) (V c main_arg2) (V c main_call0_v0) (V c main_arg4)
    (V c main_call0_v1) t.val
    (iblk0 V c 0 t) (iblk0 V c 1 t) (iblk0 V c 2 t) (iblk0 V c 3 t) (iblk0 V c 4 t) (iblk0 V c 5 t) (iblk0 V c 6 t)
    (fun x k => iblk0_0_apply V c t x k) (iblk0_1_eq V c t) (fun x k => iblk0_2_apply V c t x k)
    (iblk0_3_eq V c t) (iblk0_4_eq V c t) (iblk0_5_eq V c t) (iblk0_6_eq V c t)
    j (((cfg0.win 7).blk t).view.emb j)
    (by show win0_7.index t (0 : Fin 2) * 400 + 1 * (j 0).val = 400 * t.val + (j 0).val; omega)
    (by show win0_7.index t (1 : Fin 2) * 16 + 1 * (j 1).val = (j 1).val; omega)

/-- An index of the result array is in point `t`'s block exactly when each coordinate is in the block's range. -/
theorem mem_blk0_7 (t : Fin cfg0.N) (i : S10000x16.Idx) :
    i ∈ ((cfg0.win 7).blk t).view.set ↔ ∀ a : Fin 2, win0_7.index t a * S400x16.size a ≤ (i a).val
      ∧ (i a).val < win0_7.index t a * S400x16.size a + S400x16.size a := by
  show i ∈ ((View.whole main_call0_v2_0).slice (win0_7.rect t)).set ↔ _
  rw [View.set_slice_whole, Rect.mem_set_unit]
  exact Iff.rfl

/-- Row `r` of the result array is written by point `r / 400`. -/
theorem cover0_7 (i : S10000x16.Idx) :
    ∃ t : Fin cfg0.N, (cfg0.win 7).flush t = true ∧ i ∈ ((cfg0.win 7).blk t).view.set := by
  have hN : cfg0.N = 25 := N_0
  have h0 : (i 0).val < 10000 := idx2_lt0 i
  have h1 : (i 1).val < 16 := idx2_lt1 i
  obtain ⟨t, ht⟩ : ∃ t : Fin cfg0.N, t.val = (i 0).val / 400 :=
    ⟨⟨(i 0).val / 400, by rw [hN]; omega⟩, rfl⟩
  have hi := index0 t
  refine ⟨t, flush0_7 t, ?_⟩
  rw [mem_blk0_7]
  intro a
  match a with
  | ⟨0, _⟩ =>
    show win0_7.index t (0 : Fin 2) * 400 ≤ (i 0).val ∧ (i 0).val < win0_7.index t (0 : Fin 2) * 400 + 400
    omega
  | ⟨1, _⟩ =>
    show win0_7.index t (1 : Fin 2) * 16 ≤ (i 1).val ∧ (i 1).val < win0_7.index t (1 : Fin 2) * 16 + 16
    omega

/-- After the first pass the own-logit array holds, at row `r`, node `r`'s own contribution to its logits. -/
theorem final0_7 (c : Dev nD) : (dat0 (F := Ideal) V c).arrAt 7 cfg0.N = fun i => yself (hid (row (V c main_arg1) (i 0)) (mat (V c main_arg0)) (row (V c main_arg0) (i 0)) (mat (V c main_arg2)) (row0 (V c main_call0_v0))) (mat (V c main_arg4)) (row0 (V c main_call0_v1)) (i 1) :=
  (dat0 (F := Ideal) V c).arrAt_eq_of_cover 7 _ (fun t _ => flushed0_7_eq V c t) cover0_7

/-- What point `t` writes back to the offered-logit array is block `t` of one function of the pass's input arrays. -/
theorem flushed0_8_eq (c : Dev nD) (t : Fin cfg0.N) :
    (dat0 (F := Ideal) V c).flushed 8 t = ((cfg0.win 8).blk t).view.read (Elt Ideal)
      (fun i => yneigh (hid (row (V c main_arg1) (i 0)) (mat (V c main_arg0)) (row (V c main_arg0) (i 0))
        (mat (V c main_arg2)) (row0 (V c main_call0_v0))) (mat (V c main_arg4)) (i 1)) := by
  have hi := index0 t
  show (cfg0.win 8).cut (grid0.coords t) ((dat0 V c).after 8 t) = _
  rw [after0_8]
  funext j
  rw [View.read_apply]
  exact pay3_block (V c main_arg1) (V c main_arg0) (V c main_arg2) (V c main_call0_v0) (V c main_arg4) t.val
    (iblk0 V c 0 t) (iblk0 V c 1 t) (iblk0 V c 2 t) (iblk0 V c 3 t) (iblk0 V c 4 t) (iblk0 V c 5 t)
    (fun x k => iblk0_0_apply V c t x k) (iblk0_1_eq V c t) (fun x k => iblk0_2_apply V c t x k)
    (iblk0_3_eq V c t) (iblk0_4_eq V c t) (iblk0_5_eq V c t)
    j (((cfg0.win 8).blk t).view.emb j)
    (by show win0_8.index t (0 : Fin 2) * 400 + 1 * (j 0).val = 400 * t.val + (j 0).val; omega)
    (by show win0_8.index t (1 : Fin 2) * 16 + 1 * (j 1).val = (j 1).val; omega)

/-- An index of the result array is in point `t`'s block exactly when each coordinate is in the block's range. -/
theorem mem_blk0_8 (t : Fin cfg0.N) (i : S10000x16.Idx) :
    i ∈ ((cfg0.win 8).blk t).view.set ↔ ∀ a : Fin 2, win0_8.index t a * S400x16.size a ≤ (i a).val
      ∧ (i a).val < win0_8.index t a * S400x16.size a + S400x16.size a := by
  show i ∈ ((View.whole main_call0_v2_1).slice (win0_8.rect t)).set ↔ _
  rw [View.set_slice_whole, Rect.mem_set_unit]
  exact Iff.rfl

/-- Row `r` of the result array is written by point `r / 400`. -/
theorem cover0_8 (i : S10000x16.Idx) :
    ∃ t : Fin cfg0.N, (cfg0.win 8).flush t = true ∧ i ∈ ((cfg0.win 8).blk t).view.set := by
  have hN : cfg0.N = 25 := N_0
  have h0 : (i 0).val < 10000 := idx2_lt0 i
  have h1 : (i 1).val < 16 := idx2_lt1 i
  obtain ⟨t, ht⟩ : ∃ t : Fin cfg0.N, t.val = (i 0).val / 400 :=
    ⟨⟨(i 0).val / 400, by rw [hN]; omega⟩, rfl⟩
  have hi := index0 t
  refine ⟨t, flush0_8 t, ?_⟩
  rw [mem_blk0_8]
  intro a
  match a with
  | ⟨0, _⟩ =>
    show win0_8.index t (0 : Fin 2) * 400 ≤ (i 0).val ∧ (i 0).val < win0_8.index t (0 : Fin 2) * 400 + 400
    omega
  | ⟨1, _⟩ =>
    show win0_8.index t (1 : Fin 2) * 16 ≤ (i 1).val ∧ (i 1).val < win0_8.index t (1 : Fin 2) * 16 + 16
    omega

/-- After the first pass the offered-logit array holds, at row `r`, what node `r` offers its neighbours. -/
theorem final0_8 (c : Dev nD) : (dat0 (F := Ideal) V c).arrAt 8 cfg0.N = fun i => yneigh (hid (row (V c main_arg1) (i 0)) (mat (V c main_arg0)) (row (V c main_arg0) (i 0)) (mat (V c main_arg2)) (row0 (V c main_call0_v0))) (mat (V c main_arg4)) (i 1) :=
  (dat0 (F := Ideal) V c).arrAt_eq_of_cover 8 _ (fun t _ => flushed0_8_eq V c t) cover0_8

/-! ## Second pass -/

/-- The printed index maps over the 25 grid points of the second pass. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `400 t … 400 t + 399` of the weights. -/
theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg1 : S10000x10000.Idx → EReal) k := by
  have hi := index1 t
  unfold iblk1
  rw [View.read_apply]
  show V c main_arg1 _ = V c main_arg1 _
  congr 1
  funext a
  apply Fin.ext
  match a with
  | ⟨0, _⟩ => show win1_0.index t (0 : Fin 2) * 400 + 1 * (x 0).val = (k 0).val; omega
  | ⟨1, _⟩ => show win1_0.index t (1 : Fin 2) * 10000 + 1 * (x 1).val = (k 1).val; omega

/-- Window 1's block is the whole offered-logit array at every point. -/
theorem iblk1_1_eq (c : Dev nD) (t : Fin cfg1.N) :
    (iblk1 V c 1 t : Vec Ideal S10000x16 .f32) = (V c main_call0_v2_1 : S10000x16.Idx → EReal) := by
  have hi := index1 t
  funext x
  unfold iblk1
  rw [View.read_apply]
  show V c main_call0_v2_1 _ = V c main_call0_v2_1 _
  congr 1
  funext a
  apply Fin.ext
  match a with
  | ⟨0, _⟩ => show win1_1.index t (0 : Fin 2) * 10000 + 1 * (x 0).val = (x 0).val; omega
  | ⟨1, _⟩ => show win1_1.index t (1 : Fin 2) * 16 + 1 * (x 1).val = (x 1).val; omega

/-- Window 2's block at point `t` is rows `400 t … 400 t + 399` of the own-logit array. -/
theorem iblk1_2_apply (c : Dev nD) (t : Fin cfg1.N) (x : S400x16.Idx) (k : S10000x16.Idx)
    (hk0 : (k 0).val = 400 * t.val + (x 0).val) (hk1 : (k 1).val = (x 1).val) :
    (iblk1 V c 2 t : Vec Ideal S400x16 .f32) x = (V c main_call0_v2_0 : S10000x16.Idx → EReal) k := by
  have hi := index1 t
  unfold iblk1
  rw [View.read_apply]
  show V c main_call0_v2_0 _ = V c main_call0_v2_0 _
  congr 1
  funext a
  apply Fin.ext
  match a with
  | ⟨0, _⟩ => show win1_2.index t (0 : Fin 2) * 400 + 1 * (x 0).val = (k 0).val; omega
  | ⟨1, _⟩ => show win1_2.index t (1 : Fin 2) * 16 + 1 * (x 1).val = (k 1).val; omega

/-- The second pass's payload at an element of block `p`, over the arrays the blocks were cut from. -/
theorem pass2_block (A1 : S10000x10000.Idx → EReal) (Y : S10000x16.Idx → EReal) (Z : S10000x16.Idx → EReal) (p : Nat)
    (v0 : Vec Ideal S400x10000 .f32) (v5 : Vec Ideal S10000x16 .f32) (v8 : Vec Ideal S400x16 .f32)
    (h0 : ∀ (x : S400x10000.Idx) (k : S10000x10000.Idx),
      (k 0).val = 400 * p + (x 0).val → (k 1).val = (x 1).val → v0 x = A1 k)
    (h5 : v5 = Y)
    (h8 : ∀ (x : S400x16.Idx) (k : S10000x16.Idx),
      (k 0).val = 400 * p + (x 0).val → (k 1).val = (x 1).val → v8 x = Z k)
    (j : S400x16.Idx) (i : S10000x16.Idx) (hi0 : (i 0).val = 400 * p + (j 0).val) (hi1 : (i 1).val = (j 1).val) :
    k1_pay1 (F := Ideal) v0 v5 v8 j
      = logSoftmax (fun c' => Z (ix2 (i 0) c') + mean (row A1 (i 0)) (mat Y) c') (i 1) := by
  subst h5
  obtain ⟨r, q, rfl⟩ : ∃ (r : Fin 400) (q : Fin 16), j = ix2 r q := ⟨j 0, j 1, eq_ix2 j⟩
  obtain ⟨r', q', rfl⟩ : ∃ (r' : Fin 10000) (q' : Fin 16), i = ix2 r' q' := ⟨i 0, i 1, eq_ix2 i⟩
  obtain rfl : q' = q := Fin.ext hi1
  have e8 : ∀ c' : Fin 16, v8 (ix2 r c') = Z (ix2 r' c') := fun c' => h8 (ix2 r c') (ix2 r' c') hi0 rfl
  rw [pass2_apply, row_of_block A1 v0 p h0 r r' hi0]
  simp only [e8]

/-- What point `t` writes back to the result array is block `t` of one function of the pass's input arrays. -/
theorem flushed1_3_eq (c : Dev nD) (t : Fin cfg1.N) :
    (dat1 (F := Ideal) V c).flushed 3 t = ((cfg1.win 3).blk t).view.read (Elt Ideal)
      (fun i => logSoftmax (fun c' => mat (V c main_call0_v2_0) (i 0) c'
        + mean (row (V c main_arg1) (i 0)) (mat (V c main_call0_v2_1)) c') (i 1)) := by
  have hi := index1 t
  show (cfg1.win 3).cut (grid1.coords t) ((dat1 V c).after 3 t) = _
  rw [after1_3]
  funext j
  rw [View.read_apply]
  exact pass2_block (V c main_arg1) (V c main_call0_v2_1) (V c main_call0_v2_0) t.val
    (iblk1 V c 0 t) (iblk1 V c 1 t) (iblk1 V c 2 t)
    (fun x k => iblk1_0_apply V c t x k) (iblk1_1_eq V c t) (fun x k => iblk1_2_apply V c t x k)
    j (((cfg1.win 3).blk t).view.emb j)
    (by show win1_3.index t (0 : Fin 2) * 400 + 1 * (j 0).val = 400 * t.val + (j 0).val; omega)
    (by show win1_3.index t (1 : Fin 2) * 16 + 1 * (j 1).val = (j 1).val; omega)

/-- An index of the result array is in point `t`'s block exactly when each coordinate is in the block's range. -/
theorem mem_blk1_3 (t : Fin cfg1.N) (i : S10000x16.Idx) :
    i ∈ ((cfg1.win 3).blk t).view.set ↔ ∀ a : Fin 2, win1_3.index t a * S400x16.size a ≤ (i a).val
      ∧ (i a).val < win1_3.index t a * S400x16.size a + S400x16.size a := by
  show i ∈ ((View.whole main_v0).slice (win1_3.rect t)).set ↔ _
  rw [View.set_slice_whole, Rect.mem_set_unit]
  exact Iff.rfl

/-- Row `r` of the result array is written by point `r / 400`. -/
theorem cover1_3 (i : S10000x16.Idx) :
    ∃ t : Fin cfg1.N, (cfg1.win 3).flush t = true ∧ i ∈ ((cfg1.win 3).blk t).view.set := by
  have hN : cfg1.N = 25 := N_1
  have h0 : (i 0).val < 10000 := idx2_lt0 i
  have h1 : (i 1).val < 16 := idx2_lt1 i
  obtain ⟨t, ht⟩ : ∃ t : Fin cfg1.N, t.val = (i 0).val / 400 :=
    ⟨⟨(i 0).val / 400, by rw [hN]; omega⟩, rfl⟩
  have hi := index1 t
  refine ⟨t, flush1_3 t, ?_⟩
  rw [mem_blk1_3]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 16 ≤ (i 1).val ∧ (i 1).val < win1_3.index t (1 : Fin 2) * 16 + 16
    omega

/-- After the second pass the result array holds, at row `r`, the log-softmax of node `r`'s own logits plus the mean
    of what the nodes offer. -/
theorem final1_3 (c : Dev nD) : (dat1 (F := Ideal) V c).arrAt 3 cfg1.N = fun i => logSoftmax (fun c' => mat (V c main_call0_v2_0) (i 0) c' + mean (row (V c main_arg1) (i 0)) (mat (V c main_call0_v2_1)) c') (i 1) :=
  (dat1 (F := Ideal) V c).arrAt_eq_of_cover 3 _ (fun t _ => flushed1_3_eq V c t) cover1_3

end Cert.KernelIdeal.Hand

end
-- ==== Proof.KIValue.lean ====
/-
  The kernel's result as the specification's function of the launch arrays, over the extended reals.

  The second pass leaves in the result array the log-softmax rows of the logits it assembles from the two arrays the
  first pass wrote; the first pass wrote them from the launch arrays and from the two bias rows, which the host
  reshaped from the bias vectors before it. Substituting one into the other gives the specification's two-pass
  arrangement of the launch arrays.
-/
import proofs.«142810_g53910429499711_cont_9to1_m_389_4_alg».proof.Proof.KIVal
import proofs.«142810_g53910429499711_cont_9to1_m_389_4_alg».proof.Proof.KIFinal
import proofs.«142810_g53910429499711_cont_9to1_m_389_4_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo

variable (m : (ℓ : Loc nD τ sig) → Buf (Elt Ideal) ℓ)

/-! ## What the first pass is entered from -/

/-- An array the host reshapes do not write is, before the first pass, as launched. -/
theorem R1_arg (c : Dev nD) (r : Ref sig .tc) (h : r ∉ hostOps0_W) : R1 m c r = m ((c.tc : Thread nD τ).loc r) :=
  (V1_of m c r h).trans rfl

/-- The first bias row is the first bias vector given a leading unit axis. -/
theorem R1_b1 (c : Dev nD) : (R1 m c main_call0_v0 : S1x128.Idx → EReal)
    = shapeCast S1x128 (m ((c.tc : Thread nD τ).loc main_arg3) : S128.Idx → EReal) shapeCasts_S128_S1x128 := by
  dsimp only [R1, Gen.V1, Gen.hostOps0]; after_results; rfl

/-- The second bias row is the second bias vector given a leading unit axis. -/
theorem R1_b2 (c : Dev nD) : (R1 m c main_call0_v1 : S1x16.Idx → EReal)
    = shapeCast S1x16 (m ((c.tc : Thread nD τ).loc main_arg5) : S16.Idx → EReal) shapeCasts_S16_S1x16 := by
  dsimp only [R1, Gen.V1, Gen.hostOps0]; after_results; rfl

theorem row0_b1 (c : Dev nD) : row0 (R1 m c main_call0_v0) = vec (m ((c.tc : Thread nD τ).loc main_arg3)) := by
  funext k
  show (R1 m c main_call0_v0 : S1x128.Idx → EReal) (ix2 (0 : Fin 1) k) = _
  rw [R1_b1]
  exact shapeCast_a_1a_apply _ _ 0 k

theorem row0_b2 (c : Dev nD) : row0 (R1 m c main_call0_v1) = vec (m ((c.tc : Thread nD τ).loc main_arg5)) := by
  funext k
  show (R1 m c main_call0_v1 : S1x16.Idx → EReal) (ix2 (0 : Fin 1) k) = _
  rw [R1_b2]
  exact shapeCast_a_1a_apply _ _ 0 k

/-! ## What the second pass is entered from -/

/-- The first result array of the first pass, over the launch arrays: every node's own contribution to its logits. -/
theorem R2_self (c : Dev nD) : R2 m c main_call0_v2_0 = fun i =>
    yself (hid (row (m ((c.tc : Thread nD τ).loc main_arg1)) (i 0)) (mat (m ((c.tc : Thread nD τ).loc main_arg0)))
      (row (m ((c.tc : Thread nD τ).loc main_arg0)) (i 0)) (mat (m ((c.tc : Thread nD τ).loc main_arg2)))
      (vec (m ((c.tc : Thread nD τ).loc main_arg3)))) (mat (m ((c.tc : Thread nD τ).loc main_arg4)))
      (vec (m ((c.tc : Thread nD τ).loc main_arg5))) (i 1) := by
  refine ((W2_v2_0 m c).trans (final0_7 (R1 m) c)).trans ?_
  rw [row0_b1, row0_b2, R1_arg m c main_arg0 (by decide), R1_arg m c main_arg1 (by decide),
    R1_arg m c main_arg2 (by decide), R1_arg m c main_arg4 (by decide)]

/-- The second result array of the first pass, over the launch arrays: what every node offers its neighbours. -/
theorem R2_neigh (c : Dev nD) : R2 m c main_call0_v2_1 = fun i =>
    yneigh (hid (row (m ((c.tc : Thread nD τ).loc main_arg1)) (i 0)) (mat (m ((c.tc : Thread nD τ).loc main_arg0)))
      (row (m ((c.tc : Thread nD τ).loc main_arg0)) (i 0)) (mat (m ((c.tc : Thread nD τ).loc main_arg2)))
      (vec (m ((c.tc : Thread nD τ).loc main_arg3)))) (mat (m ((c.tc : Thread nD τ).loc main_arg4))) (i 1) := by
  refine ((W2_v2_1 m c).trans (final0_8 (R1 m) c)).trans ?_
  rw [row0_b1, R1_arg m c main_arg0 (by decide), R1_arg m c main_arg1 (by decide),
    R1_arg m c main_arg2 (by decide), R1_arg m c main_arg4 (by decide)]

/-- The weights reach the second pass as launched. -/
theorem R2_adj (c : Dev nD) : R2 m c main_arg1 = m ((c.tc : Thread nD τ).loc main_arg1) :=
  (W2_of m c main_arg1 (by decide)).trans (R1_arg m c main_arg1 (by decide))

/-! ## The result -/

/-- The two passes composed, over any arrays: the log-softmax of the own contributions plus the weighted means of the
    offered rows is the specification's two-pass arrangement. -/
theorem passes_eq_kernelOut (adj : S10000x10000.Idx → EReal) (X : S10000x128.Idx → EReal) (W1 : S256x128.Idx → EReal)
    (b1 : Fin 128 → EReal) (W2 : S256x16.Idx → EReal) (b2 : Fin 16 → EReal) (i : S10000x16.Idx) :
    logSoftmax (fun c' =>
        mat (fun i : S10000x16.Idx => yself (hid (row adj (i 0)) (mat X) (row X (i 0)) (mat W1) b1) (mat W2) b2 (i 1)) (i 0) c'
          + mean (row adj (i 0))
              (mat (fun i : S10000x16.Idx => yneigh (hid (row adj (i 0)) (mat X) (row X (i 0)) (mat W1) b1) (mat W2) (i 1))) c')
        (i 1)
      = kernelOut (mat adj) (mat X) (mat W1) b1 (mat W2) b2 (i 0) (i 1) := rfl

/-- What the second pass leaves in the result array: the specification's two-pass function of the launch arrays. -/
theorem kernel_value (c : Dev nD) : (dat1 (F := Ideal) (R2 m) c).arrAt 3 cfg1.N = fun i =>
    kernelOut (mat (m ((c.tc : Thread nD τ).loc main_arg1))) (mat (m ((c.tc : Thread nD τ).loc main_arg0)))
      (mat (m ((c.tc : Thread nD τ).loc main_arg2))) (vec (m ((c.tc : Thread nD τ).loc main_arg3)))
      (mat (m ((c.tc : Thread nD τ).loc main_arg4))) (vec (m ((c.tc : Thread nD τ).loc main_arg5))) (i 0) (i 1) := by
  refine (final1_3 (R2 m) c).trans ?_
  rw [R2_self, R2_neigh, R2_adj]
  exact funext fun i => passes_eq_kernelOut _ _ _ _ _ _ i

end Cert.KernelIdeal.Hand

end
-- ==== Proof.RefValue.lean ====
/-
  The reference program computes the specification's `refOut`.

  The reference is read one operation at a time, at an index (i, k) written with the literal-size constructors: the degree
  column is the floored row sum of the weights; the aggregated features are the weighted mean; a concatenation along
  the columns reads its first operand below column 128 and its second from column 128 on; a product with a weight
  matrix plus a broadcast bias is the linear layer; the maximum with a broadcast zero is the rectifier; and the tail
  is the log-softmax shifted by the row maximum, the maximum being a fold from the bottom element.
-/
import proofs.«142810_g53910429499711_cont_9to1_m_389_4_alg».proof.Proof.RefRun
import proofs.«142810_g53910429499711_cont_9to1_m_389_4_alg».proof.Proof.RefRead
import proofs.«142810_g53910429499711_cont_9to1_m_389_4_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## Words -/

/-- The single-precision word of minus infinity is the bottom element. -/
theorem negInf_word : Ideal.ofBits .f32 0xFF800000#32 = (⊥ : EReal) := by simp [Ideal.ofBits, Ideal.ieee]

/-- A fold by the maximum from the bottom element is the supremum. -/
theorem fold_maximumf_eq_sup {ι : Type} [DecidableEq ι] (s : Finset ι) (f : ι → EReal) :
    s.fold (FloatOps.maximumf (F := Ideal) (φ := .f32)) (⊥ : EReal) f = s.sup f := by
  induction s using Finset.induction_on with
  | empty => simp
  | insert a s ha ih =>
    rw [Finset.fold_insert ha, Finset.sup_insert, ih]
    first | rfl | exact sup_eq_max.symm

/-! ## The degree column -/

/-- The first degree column: the row sum of the weights, floored. -/
theorem deg_col (x1 : FVec Ideal S10000x10000 .f32) (i : Fin 10000) (z : Fin 1) :
    val_main_v2 (F := Ideal) x1 (ix2 i z) = Cert.Spec.deg (fun j => x1 (ix2 i j)) := by
  rw [val_main_v2_apply, val_main_call0_v1_apply, val_main_call0_v0_apply, val_main_cst_0_apply,
    val_main_v1_apply, val_main_v0_apply, val_main_cst_apply]
  have e : ∀ k : Fin 10000, idx_main_v0 (idx_main_v1 (ix2 i z)) k = ix2 i k := fun k =>
    funext fun a => Fin.ext (by match a with | ⟨0, _⟩ => rfl | ⟨1, _⟩ => rfl)
  simp only [e, Ideal.maximumf_def, Ideal.ofBits_def, Ideal.ofBits_zero_f32, zero_add]
  rw [max_comm]
  rfl

/-- The second degree column is the same function of the weights. -/
theorem deg_col' (x1 : FVec Ideal S10000x10000 .f32) (i : Fin 10000) (z : Fin 1) :
    val_main_v14 (F := Ideal) x1 (ix2 i z) = Cert.Spec.deg (fun j => x1 (ix2 i j)) := by
  rw [val_main_v14_apply, val_main_call2_v1_apply, val_main_call2_v0_apply, val_main_cst_2_apply,
    val_main_v13_apply, val_main_v12_apply, val_main_cst_1_apply]
  have e : ∀ k : Fin 10000, idx_main_v12 (idx_main_v13 (ix2 i z)) k = ix2 i k := fun k =>
    funext fun a => Fin.ext (by match a with | ⟨0, _⟩ => rfl | ⟨1, _⟩ => rfl)
  simp only [e, Ideal.maximumf_def, Ideal.ofBits_def, Ideal.ofBits_zero_f32, zero_add]
  rw [max_comm]
  rfl

/-! ## The weighted mean -/

/-- The aggregated input features are the weighted mean of the features. -/
theorem mean_in (x0 : FVec Ideal S10000x128 .f32) (x1 : FVec Ideal S10000x10000 .f32) (i : Fin 10000) (k : Fin 128) :
    val_main_v5 (F := Ideal) x0 x1 (ix2 i k)
      = Cert.Spec.mean (fun j => x1 (ix2 i j)) (fun j k => x0 (ix2 j k)) k := by
  rw [val_main_v5_apply, val_main_v3_apply, val_main_v4_apply]
  have e4 : idx_main_v4 (ix2 i k) = ix2 i (0 : Fin 1) := funext fun a => Fin.ext (by match a with | ⟨0, _⟩ => rfl | ⟨1, _⟩ => rfl)
  have el : ∀ j : Fin 10000, lidx_main_v3 (ix2 i k) j = ix2 i j := fun j => funext fun a => Fin.ext (by match a with | ⟨0, _⟩ => rfl | ⟨1, _⟩ => rfl)
  have er : ∀ j : Fin 10000, ridx_main_v3 (ix2 i k) j = ix2 j k := fun j => funext fun a => Fin.ext (by match a with | ⟨0, _⟩ => rfl | ⟨1, _⟩ => rfl)
  simp only [e4, el, er, deg_col, Ideal.hostDivf_def]
  rfl

/-! ## A concatenation along the columns -/

/-- Two [10000, 128] arrays side by side, read at (i, k). -/
theorem cat_apply (u v : FVec Ideal S10000x128 .f32) (i : Fin 10000) (k : Fin 256) :
    concatenate S10000x256 1 [⟨S10000x128, u⟩, ⟨S10000x128, v⟩] concatenates_S10000x128_S10000x128_S10000x256_d1 (ix2 i k)
      = Cert.Spec.cat (fun k => u (ix2 i k)) (fun k => v (ix2 i k)) k := by
  unfold Cert.Spec.cat
  by_cases h : k.val < 128
  · rw [dif_pos h]
    exact concatenate_pair_apply_left 1 u v concatenates_S10000x128_S10000x128_S10000x256_d1 (ix2 i k) rfl
      (ix2 i (⟨k.val, h⟩ : Fin 128)) (fun b => by
        match b with
        | ⟨0, _⟩ => rfl
        | ⟨1, _⟩ => rfl)
  · rw [dif_neg h]
    exact concatenate_pair_apply_right 1 u v concatenates_S10000x128_S10000x128_S10000x256_d1 (ix2 i k) rfl rfl
      (ix2 i (⟨k.val - 128, by omega⟩ : Fin 128))
      (fun b hb => by
        match b with
        | ⟨0, _⟩ => rfl
        | ⟨1, _⟩ => exact absurd rfl hb)
      (by show k.val - 128 + 128 = k.val; omega)

/-! ## The hidden layer -/

/-- The hidden layer is the specification's. -/
theorem hid_eq (x0 : FVec Ideal S10000x128 .f32) (x1 : FVec Ideal S10000x10000 .f32) (x2 : FVec Ideal S256x128 .f32) (x3 : FVec Ideal S128 .f32) (i : Fin 10000) (k : Fin 128) :
    val_main_v11 (F := Ideal) x0 x1 x2 x3 (ix2 i k) = Cert.Spec.refHid (Cert.Spec.mat x1) (Cert.Spec.mat x0) (Cert.Spec.mat x2) (Cert.Spec.vec x3) i k := by
  rw [val_main_v11_apply, val_main_v10_apply, val_main_v7_apply, val_main_v9_apply, val_main_v8_apply,
    val_main_call1_v0_apply, val_main_call1_cst_apply]
  have e3 : idx_main_v8 (idx_main_v9 (ix2 i k)) = ix1 k := funext fun a => Fin.ext (by match a with | ⟨0, _⟩ => rfl)
  have el : ∀ j : Fin 256, lidx_main_v7 (ix2 i k) j = ix2 i j := fun j => funext fun a => Fin.ext (by match a with | ⟨0, _⟩ => rfl | ⟨1, _⟩ => rfl)
  have er : ∀ j : Fin 256, ridx_main_v7 (ix2 i k) j = ix2 j k := fun j => funext fun a => Fin.ext (by match a with | ⟨0, _⟩ => rfl | ⟨1, _⟩ => rfl)
  unfold val_main_v6
  simp only [e3, el, er, cat_apply, mean_in, Ideal.maximumf_def, Ideal.addf_def, Ideal.ofBits_def, Ideal.ofBits_zero_f32]
  rfl

/-- The aggregated hidden rows are the weighted mean of the hidden layer. -/
theorem mean_hid (x0 : FVec Ideal S10000x128 .f32) (x1 : FVec Ideal S10000x10000 .f32) (x2 : FVec Ideal S256x128 .f32) (x3 : FVec Ideal S128 .f32) (i : Fin 10000) (k : Fin 128) :
    val_main_v17 (F := Ideal) x0 x1 x2 x3 (ix2 i k)
      = Cert.Spec.mean (fun j => x1 (ix2 i j)) (Cert.Spec.refHid (Cert.Spec.mat x1) (Cert.Spec.mat x0) (Cert.Spec.mat x2) (Cert.Spec.vec x3)) k := by
  rw [val_main_v17_apply, val_main_v15_apply, val_main_v16_apply]
  have e4 : idx_main_v16 (ix2 i k) = ix2 i (0 : Fin 1) := funext fun a => Fin.ext (by match a with | ⟨0, _⟩ => rfl | ⟨1, _⟩ => rfl)
  have el : ∀ j : Fin 10000, lidx_main_v15 (ix2 i k) j = ix2 i j := fun j => funext fun a => Fin.ext (by match a with | ⟨0, _⟩ => rfl | ⟨1, _⟩ => rfl)
  have er : ∀ j : Fin 10000, ridx_main_v15 (ix2 i k) j = ix2 j k := fun j => funext fun a => Fin.ext (by match a with | ⟨0, _⟩ => rfl | ⟨1, _⟩ => rfl)
  simp only [e4, el, er, deg_col', hid_eq, Ideal.hostDivf_def]
  rfl

/-! ## The logits -/

/-- The logits are the second linear layer on the hidden row beside the aggregated hidden rows. -/
theorem logits_eq (x0 : FVec Ideal S10000x128 .f32) (x1 : FVec Ideal S10000x10000 .f32) (x2 : FVec Ideal S256x128 .f32) (x3 : FVec Ideal S128 .f32) (x4 : FVec Ideal S256x16 .f32) (x5 : FVec Ideal S16 .f32) (i : Fin 10000) (c : Fin 16) :
    val_main_v22 (F := Ideal) x0 x1 x2 x3 x4 x5 (ix2 i c)
      = Cert.Spec.layer (Cert.Spec.refHid (Cert.Spec.mat x1) (Cert.Spec.mat x0) (Cert.Spec.mat x2) (Cert.Spec.vec x3) i) (Cert.Spec.mean (Cert.Spec.mat x1 i) (Cert.Spec.refHid (Cert.Spec.mat x1) (Cert.Spec.mat x0) (Cert.Spec.mat x2) (Cert.Spec.vec x3)))
          (Cert.Spec.mat x4) (Cert.Spec.vec x5) c := by
  rw [val_main_v22_apply, val_main_v19_apply, val_main_v21_apply, val_main_v20_apply]
  have e3 : idx_main_v20 (idx_main_v21 (ix2 i c)) = ix1 c := funext fun a => Fin.ext (by match a with | ⟨0, _⟩ => rfl)
  have el : ∀ j : Fin 256, lidx_main_v19 (ix2 i c) j = ix2 i j := fun j => funext fun a => Fin.ext (by match a with | ⟨0, _⟩ => rfl | ⟨1, _⟩ => rfl)
  have er : ∀ j : Fin 256, ridx_main_v19 (ix2 i c) j = ix2 j c := fun j => funext fun a => Fin.ext (by match a with | ⟨0, _⟩ => rfl | ⟨1, _⟩ => rfl)
  unfold val_main_v18
  simp only [e3, el, er, cat_apply, hid_eq, mean_hid, Ideal.addf_def]
  rfl

/-! ## The log-softmax tail -/

/-- The reduction by the maximum from minus infinity along the columns is the row's supremum. -/
theorem rowMax_eq (L : FVec Ideal S10000x16 .f32) (i : Fin 10000) :
    Host.reduce (FloatOps.maximumf (F := Ideal) (φ := .f32)) L (constant (F := Ideal) S_ .f32 0xFF800000#32)
        reducesTo_S10000x16_S10000_d1 h_S_ (ix1 i)
      = Cert.Spec.rowMax (fun c => L (ix2 i c)) := by
  have hr : S10000x16.Reduces [1] S10000 := by decide
  rw [Host.reduce_eq_fold_single (FloatOps.maximumf (F := Ideal) (φ := .f32)) L _ reducesTo_S10000x16_S10000_d1 hr h_S_ (ix1 i)]
  have hb : (constant (F := Ideal) S_ .f32 0xFF800000#32) (Shape.Idx.first h_S_) = (⊥ : EReal) := negInf_word
  have hl : (L ∘ hr.lift (ix1 i)) = fun c : Fin 16 => L (ix2 i c) :=
    funext fun c => congrArg L (funext fun a => Fin.ext (by match a with | ⟨0, _⟩ => rfl | ⟨1, _⟩ => rfl))
  rw [hb, hl]
  exact fold_maximumf_eq_sup Finset.univ _

/-- The logits less their row maximum. -/
theorem shifted_eq (x0 : FVec Ideal S10000x128 .f32) (x1 : FVec Ideal S10000x10000 .f32) (x2 : FVec Ideal S256x128 .f32) (x3 : FVec Ideal S128 .f32) (x4 : FVec Ideal S256x16 .f32) (x5 : FVec Ideal S16 .f32) (i : Fin 10000) (c : Fin 16) :
    val_main_call3_v5 (F := Ideal) x0 x1 x2 x3 x4 x5 (ix2 i c)
      = val_main_v22 (F := Ideal) x0 x1 x2 x3 x4 x5 (ix2 i c)
        - Cert.Spec.rowMax (fun c' => val_main_v22 (F := Ideal) x0 x1 x2 x3 x4 x5 (ix2 i c')) := by
  rw [val_main_call3_v5_apply, val_main_call3_v4_apply, val_main_call3_v3_apply, val_main_call3_v2_apply,
    val_main_call3_v1_apply, val_main_call3_cst_0_apply]
  have e : idx_main_call3_v3 (idx_main_call3_v4 (ix2 i c)) = ix1 i := funext fun a => Fin.ext (by match a with | ⟨0, _⟩ => rfl)
  unfold val_main_call3_v0 val_main_call3_cst
  rw [e, rowMax_eq]
  simp only [Ideal.subf_def, Ideal.maximumf_def, Ideal.ofBits_def, negInf_word]
  rw [max_eq_right bot_le]

/-- The result is the log-softmax of the logits' row. -/
theorem tail_eq (x0 : FVec Ideal S10000x128 .f32) (x1 : FVec Ideal S10000x10000 .f32) (x2 : FVec Ideal S256x128 .f32) (x3 : FVec Ideal S128 .f32) (x4 : FVec Ideal S256x16 .f32) (x5 : FVec Ideal S16 .f32) (i : Fin 10000) (c : Fin 16) :
    val_main_v23 (F := Ideal) x0 x1 x2 x3 x4 x5 (ix2 i c)
      = Cert.Spec.logSoftmax (fun c' => val_main_v22 (F := Ideal) x0 x1 x2 x3 x4 x5 (ix2 i c')) c := by
  rw [val_main_v23_apply, val_main_call3_v10_apply, val_main_call3_v9_apply, val_main_call3_v8_apply,
    val_main_call3_v7_apply, val_main_call3_cst_1_apply]
  have e : idx_main_call3_v8 (idx_main_call3_v10 (ix2 i c)) = ix1 i := funext fun a => Fin.ext (by match a with | ⟨0, _⟩ => rfl)
  have e7 : ∀ c' : Fin 16, idx_main_call3_v7 (ix1 i) c' = ix2 i c' := fun c' => funext fun a => Fin.ext (by match a with | ⟨0, _⟩ => rfl | ⟨1, _⟩ => rfl)
  simp only [e, e7, val_main_call3_v6_apply, shifted_eq, Ideal.subf_def, Ideal.hostUnary_log_def, Ideal.hostUnary_exp_def,
    Ideal.ofBits_def, Ideal.ofBits_zero_f32, zero_add]
  rfl

/-! ## The result -/

/-- The reference's result is the specification's `refOut` of the argument arrays, index by index. -/
theorem ref_result (x0 : FVec Ideal S10000x128 .f32) (x1 : FVec Ideal S10000x10000 .f32) (x2 : FVec Ideal S256x128 .f32) (x3 : FVec Ideal S128 .f32) (x4 : FVec Ideal S256x16 .f32) (x5 : FVec Ideal S16 .f32) :
    val_main_v23 (F := Ideal) x0 x1 x2 x3 x4 x5
      = fun i => Cert.Spec.refOut (Cert.Spec.mat x1) (Cert.Spec.mat x0) (Cert.Spec.mat x2) (Cert.Spec.vec x3)
          (Cert.Spec.mat x4) (Cert.Spec.vec x5) (i 0) (i 1) := by
  funext idx
  obtain ⟨i, c, rfl⟩ : ∃ (i : Fin 10000) (c : Fin 16), idx = ix2 i c := ⟨idx 0, idx 1, eq_ix2 idx⟩
  rw [tail_eq]
  simp only [logits_eq]
  rfl

/-- Every execution of the reference ends with its result at `refOut` of the argument arrays, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = (fun i => Cert.Spec.refOut (Cert.Spec.mat (m ((c.tc : Thread nD τ).loc main_arg1)))
            (Cert.Spec.mat (m ((c.tc : Thread nD τ).loc main_arg0))) (Cert.Spec.mat (m ((c.tc : Thread nD τ).loc main_arg2)))
            (Cert.Spec.vec (m ((c.tc : Thread nD τ).loc main_arg3))) (Cert.Spec.mat (m ((c.tc : Thread nD τ).loc main_arg4)))
            (Cert.Spec.vec (m ((c.tc : Thread nD τ).loc main_arg5))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v23_eq m c).trans (ref_result _ _ _ _ _ _)), (h c).2⟩)
    (Cert.ReferenceIdeal.ValueP.run m ρ)

end Cert.ReferenceIdeal.RefValue

end
-- ==== Proof.Algebra.lean ====
/-
  The reference's arrangement and the kernel's arrangement of the two mean-aggregation layers give the same
  logits, whenever every input is a real number.

  Two facts. A sum over the 256 rows of a weight matrix against a concatenation of two 128-wide rows is the
  sum over the upper half against the first row plus the sum over the lower half against the second; this needs
  no finiteness, and already makes the two hidden layers equal. In the second layer the reference aggregates the
  hidden rows over the neighbours and then multiplies by the lower half of the weights, the kernel multiplies
  first: the two agree because, over the real numbers, division by the (positive) degree is multiplication by
  its reciprocal and finite sums exchange.
-/
import proofs.«142810_g53910429499711_cont_9to1_m_389_4_alg».proof.Proof.Spec
import Mathlib.Algebra.BigOperators.Fin
import Mathlib.Data.EReal.Operations
import Mathlib.Tactic

noncomputable section

open scoped BigOperators

namespace Cert.Spec

open Idealize.ShloMosaic

/-! ## A sum against a concatenation splits into its two halves -/

theorem cat_lo (u v : Fin 128 → EReal) (j : Fin 128) : cat u v (lo128 j) = u j := by
  unfold cat lo128
  simp

theorem cat_hi (u v : Fin 128 → EReal) (j : Fin 128) : cat u v (hi128 j) = v j := by
  unfold cat hi128
  simp

theorem sum_cat (u v : Fin 128 → EReal) {n : Nat} (W : Fin 256 → Fin n → EReal) (c : Fin n) :
    ∑ k, cat u v k * W k c = (∑ j, u j * W (lo128 j) c) + (∑ j, v j * W (hi128 j) c) := by
  have h := Fin.sum_univ_add (M := EReal) (a := 128) (b := 128) (fun k => cat u v k * W k c)
  refine h.trans ?_
  refine congrArg₂ (· + ·) ?_ ?_
  · exact Finset.sum_congr rfl fun j _ => by
      rw [show Fin.castAdd 128 j = lo128 j from rfl, cat_lo]
  · exact Finset.sum_congr rfl fun j _ => by
      rw [show Fin.natAdd 128 j = hi128 j from rfl, cat_hi]

theorem layer_eq (u v : Fin 128 → EReal) {n : Nat} (W : Fin 256 → Fin n → EReal) (b : Fin n → EReal)
    (c : Fin n) :
    layer u v W b c = ((∑ j, u j * W (lo128 j) c) + (∑ j, v j * W (hi128 j) c)) + b c := by
  rw [layer, sum_cat]

/-- The two hidden layers are the same function: no finiteness is needed. -/
theorem refHid_eq_hidAll (adj : Fin 10000 → Fin 10000 → EReal) (X : Fin 10000 → Fin 128 → EReal)
    (W1 : Fin 256 → Fin 128 → EReal) (b1 : Fin 128 → EReal) :
    refHid adj X W1 b1 = hidAll adj X W1 b1 := by
  funext i k
  rw [refHid, hidAll, hid, layer_eq]

/-! ## Real-valued quantities -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (r s : ℝ) : ((Max.max r s : ℝ) : EReal) = Max.max (r : EReal) (s : EReal) :=
  EReal.coe_strictMono.monotone.map_max

/-- An extended real that is a real number. -/
def IsReal (x : EReal) : Prop := ∃ r : ℝ, x = (r : EReal)

theorem isReal_of_ne {x : EReal} (h : x ≠ ⊥ ∧ x ≠ ⊤) : IsReal x :=
  ⟨x.toReal, (EReal.coe_toReal h.2 h.1).symm⟩

theorem isReal_zero : IsReal 0 := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  obtain ⟨r, rfl⟩ := hx
  obtain ⟨s, rfl⟩ := hy
  exact ⟨Max.max r s, (coe_max r s).symm⟩

theorem isReal_sum {ι : Type*} (s : Finset ι) (f : ι → EReal) (hf : ∀ i, IsReal (f i)) :
    IsReal (∑ i ∈ s, f i) := by
  refine ⟨∑ i ∈ s, (hf i).choose, ?_⟩
  rw [coe_sum]
  exact Finset.sum_congr rfl fun i _ => (hf i).choose_spec

/-- A positive real number. -/
def IsPos (x : EReal) : Prop := ∃ r : ℝ, 0 < r ∧ x = (r : EReal)

theorem IsReal.div {x d : EReal} (hx : IsReal x) (hd : IsPos d) : IsReal (Ideal.div x d) := by
  obtain ⟨r, rfl⟩ := hx
  obtain ⟨s, hs, rfl⟩ := hd
  exact ⟨r * (1 / s), by rw [Ideal.div_coe hs.ne', EReal.coe_mul]⟩

/-- The floor of a degree is a positive real number. -/
theorem eps_pos : IsPos eps := by
  refine ⟨((2 ^ 23 + 0x0CBCCC : Nat) : ℝ) * (2 : ℝ) ^ ((87 : Int) - 127 - 23), by positivity, ?_⟩
  simp [eps, Ideal.ofBits, Ideal.ieee, -EReal.coe_mul]

theorem deg_pos (a : Fin 10000 → EReal) (ha : ∀ j, IsReal (a j)) : IsPos (deg a) := by
  obtain ⟨s, hs⟩ := isReal_sum Finset.univ a ha
  obtain ⟨e, he0, he⟩ := eps_pos
  exact ⟨Max.max s e, lt_max_of_lt_right he0, by rw [deg, hs, he, coe_max]⟩

theorem isReal_mean (a : Fin 10000 → EReal) {n : Nat} (X : Fin 10000 → Fin n → EReal)
    (ha : ∀ j, IsReal (a j)) (hX : ∀ j k, IsReal (X j k)) (k : Fin n) : IsReal (mean a X k) :=
  (isReal_sum _ _ fun j => (ha j).mul (hX j k)).div (deg_pos a ha)

theorem isReal_hid (a : Fin 10000 → EReal) (X : Fin 10000 → Fin 128 → EReal) (xs : Fin 128 → EReal)
    (W1 : Fin 256 → Fin 128 → EReal) (b1 : Fin 128 → EReal)
    (ha : ∀ j, IsReal (a j)) (hX : ∀ j k, IsReal (X j k)) (hxs : ∀ k, IsReal (xs k))
    (hW1 : ∀ k c, IsReal (W1 k c)) (hb1 : ∀ k, IsReal (b1 k)) (k : Fin 128) :
    IsReal (hid a X xs W1 b1 k) :=
  (((isReal_sum _ _ fun j => (hxs j).mul (hW1 _ k)).add
    (isReal_sum _ _ fun j => (isReal_mean a X ha hX j).mul (hW1 _ k))).add (hb1 k)).max isReal_zero

/-! ## Aggregating before or after the linear map -/

/-- Over the reals, the mean of the rows of `H` followed by the linear functional `w` is the mean of the
    images of the rows under `w`. -/
theorem sum_div_mul {m n : Nat} (a : Fin m → EReal) (H : Fin m → Fin n → EReal) (w : Fin n → EReal) (d : EReal)
    (ha : ∀ j, IsReal (a j)) (hH : ∀ j k, IsReal (H j k)) (hw : ∀ k, IsReal (w k)) (hd : IsPos d) :
    ∑ k, Ideal.div (∑ j, a j * H j k) d * w k = Ideal.div (∑ j, a j * ∑ k, H j k * w k) d := by
  obtain ⟨a', rfl⟩ : ∃ a' : Fin m → ℝ, a = fun j => (a' j : EReal) :=
    ⟨fun j => (ha j).choose, funext fun j => (ha j).choose_spec⟩
  obtain ⟨H', rfl⟩ : ∃ H' : Fin m → Fin n → ℝ, H = fun j k => (H' j k : EReal) :=
    ⟨fun j k => (hH j k).choose, funext fun j => funext fun k => (hH j k).choose_spec⟩
  obtain ⟨w', rfl⟩ : ∃ w' : Fin n → ℝ, w = fun k => (w' k : EReal) :=
    ⟨fun k => (hw k).choose, funext fun k => (hw k).choose_spec⟩
  obtain ⟨r, hr, rfl⟩ := hd
  simp only [Ideal.div_coe hr.ne', ← EReal.coe_mul, ← coe_sum]
  rw [EReal.coe_eq_coe_iff]
  simp only [Finset.sum_mul, Finset.mul_sum]
  rw [Finset.sum_comm]
  exact Finset.sum_congr rfl fun j _ => Finset.sum_congr rfl fun k _ => by ring

/-- One row of the second layer: the linear map on the concatenation of a row with the aggregated rows is the
    row's own contribution plus the aggregate of what the other rows offer. -/
theorem layer_mean_eq (a : Fin 10000 → EReal) (H : Fin 10000 → Fin 128 → EReal) (h : Fin 128 → EReal)
    (W2 : Fin 256 → Fin 16 → EReal) (b2 : Fin 16 → EReal)
    (ha : ∀ j, IsReal (a j)) (hH : ∀ j k, IsReal (H j k)) (hW2 : ∀ k c, IsReal (W2 k c)) (c : Fin 16) :
    layer h (mean a H) W2 b2 c = yself h W2 b2 c + mean a (fun j c => yneigh (H j) W2 c) c := by
  rw [layer_eq, yself]
  simp only [mean, yneigh]
  rw [sum_div_mul a H (fun k => W2 (hi128 k) c) (deg a) ha hH (fun k => hW2 _ c) (deg_pos a ha)]
  exact add_right_comm _ _ _

theorem refOut_eq_kernelOut (adj : Fin 10000 → Fin 10000 → EReal) (X : Fin 10000 → Fin 128 → EReal)
    (W1 : Fin 256 → Fin 128 → EReal) (b1 : Fin 128 → EReal) (W2 : Fin 256 → Fin 16 → EReal) (b2 : Fin 16 → EReal)
    (hadj : ∀ i j, adj i j ≠ ⊥ ∧ adj i j ≠ ⊤) (hX : ∀ i k, X i k ≠ ⊥ ∧ X i k ≠ ⊤)
    (hW1 : ∀ k c, W1 k c ≠ ⊥ ∧ W1 k c ≠ ⊤) (hb1 : ∀ k, b1 k ≠ ⊥ ∧ b1 k ≠ ⊤)
    (hW2 : ∀ k c, W2 k c ≠ ⊥ ∧ W2 k c ≠ ⊤) (hb2 : ∀ c, b2 c ≠ ⊥ ∧ b2 c ≠ ⊤) :
    refOut adj X W1 b1 W2 b2 = kernelOut adj X W1 b1 W2 b2 := by
  have hH : ∀ j k, IsReal (hidAll adj X W1 b1 j k) := fun j k =>
    isReal_hid (adj j) X (X j) W1 b1 (fun j' => isReal_of_ne (hadj j j')) (fun j' k' => isReal_of_ne (hX j' k'))
      (fun k' => isReal_of_ne (hX j k')) (fun k' c => isReal_of_ne (hW1 k' c)) (fun k' => isReal_of_ne (hb1 k')) k
  funext i c
  rw [refOut, kernelOut, refHid_eq_hidAll]
  congr 1
  funext c'
  exact layer_mean_eq (adj i) (hidAll adj X W1 b1) (hidAll adj X W1 b1 i) W2 b2
    (fun j => isReal_of_ne (hadj i j)) hH (fun k c => isReal_of_ne (hW2 k c)) c'

end Cert.Spec

end
-- ==== Proof.Finite.lean ====
/-
  From the printed precondition to "every entry of every argument array is a real number".

  The precondition is, for each of the six float arguments, the conjunction over all indices of the
  comparison `|x| < +∞`, and the six conjunctions joined by `and`. At the ideal interpretation an
  entry is an extended real, `|x|` is `max x (-x)`, the word `0x7F800000` denotes `⊤`, and the
  comparison is the strict order of the extended reals: an entry with `max x (-x) < ⊤` is neither
  `⊥` nor `⊤`.
-/
import proofs.«142810_g53910429499711_cont_9to1_m_389_4_alg».proof.Pre_finite_inputs
import proofs.«142810_g53910429499711_cont_9to1_m_389_4_alg».proof.Proof.Gen.Pre_finite_inputs
import Idealize.ShloMosaic.Lib.ReduceAll
import Idealize.ShloMosaic.Lib.ValueIdx
import Idealize.ShloMosaic.Lib.IdealHost
import Idealize.ShloMosaic.PureOps.Ideal

namespace Cert.Finite

open Idealize.ShloMosaic

/-- The f32 word `0x7F800000` denotes `+∞`. -/
theorem inf_word : Ideal.ofBits .f32 0x7F800000#32 = (⊤ : EReal) := by
  simp [Ideal.ofBits, Ideal.ieee]

/-- An extended real whose absolute value `max x (-x)` is below `+∞` is a real number. -/
theorem real_of_abs_lt_top (x : EReal) (h : max x (-x) < ⊤) : x ≠ ⊥ ∧ x ≠ ⊤ := by
  induction x using EReal.rec with
  | bot => simp at h
  | coe r => exact ⟨EReal.coe_ne_bot r, EReal.coe_ne_top r⟩
  | top => simp at h

/-- The element fact: the comparison `|x| < +∞` giving the word 1 says `x` is a real number. -/
theorem real_of_cmp (x : EReal)
    (h : Ideal.cmp .olt (max x (-x)) (Ideal.ofBits .f32 0x7F800000#32) = 1#1) : x ≠ ⊥ ∧ x ≠ ⊤ := by
  rw [inf_word] at h
  refine real_of_abs_lt_top x ?_
  by_contra hn
  simp [Ideal.cmp, hn] at h

/-- The result shape of a reduction over all axes has one index. -/
theorem subsingleton_idx0 : Subsingleton (⟨0, ![]⟩ : Shape).Idx := ⟨fun a b => funext fun d => d.elim0⟩

attribute [local instance] subsingleton_idx0

/-- One argument: if the conjunction over all indices of `|x| < +∞` is 1, every entry of `x` is real. -/
theorem finite_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (init : IVec ⟨0, ![]⟩ 1)
    (hall : Host.reduce IntOp.andi
        (cmpf .olt (Host.absf x) (broadcastInDim s ![] hb (constant (F := Ideal) ⟨0, ![]⟩ .f32 0x7F800000#32)))
        init hr hu ValueIdx.ix0 = 1#1) :
    ∀ i, x i ≠ ⊥ ∧ x i ≠ ⊤ := by
  intro i
  have e := Host.reduce_andi_all _ init hr hu ValueIdx.ix0 hall i
  rw [ValueIdx.cmpf_apply, ValueIdx.broadcastInDim_scalar_apply, ValueIdx.constant_apply] at e
  exact real_of_cmp (x i) e

/-- A conjunction of two `i1` arrays that reads 1 at an index has both conjuncts 1 there. -/
theorem andi_one {s : Shape} (a b : IVec s 1) (i : s.Idx) (h : andi a b i = 1#1) : a i = 1#1 ∧ b i = 1#1 :=
  IntOp.andi_eq_one.1 h

/-- The precondition read back: every entry of each of the six argument arrays is a real number. -/
theorem finite_of_fn [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S256x128 .f32) (x3 : FVec Ideal Cert.Pre_finite_inputs.S128 .f32)
    (x4 : FVec Ideal Cert.Pre_finite_inputs.S256x16 .f32) (x5 : FVec Ideal Cert.Pre_finite_inputs.S16 .f32)
    (h : Cert.Pre_finite_inputs.fn (F := Ideal) x0 x1 x2 x3 x4 x5 = (fun _ => 1#1)) :
    (∀ i, x0 i ≠ ⊥ ∧ x0 i ≠ ⊤) ∧ (∀ i, x1 i ≠ ⊥ ∧ x1 i ≠ ⊤) ∧ (∀ i, x2 i ≠ ⊥ ∧ x2 i ≠ ⊤) ∧
      (∀ i, x3 i ≠ ⊥ ∧ x3 i ≠ ⊤) ∧ (∀ i, x4 i ≠ ⊥ ∧ x4 i ≠ ⊤) ∧ (∀ i, x5 i ≠ ⊥ ∧ x5 i ≠ ⊤) := by
  have h0 := congrFun h ValueIdx.ix0
  dsimp only [Cert.Pre_finite_inputs.fn, Cert.Pre_finite_inputs.fn_part1] at h0
  obtain ⟨h0, a5⟩ := andi_one _ _ _ h0
  obtain ⟨h0, a4⟩ := andi_one _ _ _ h0
  obtain ⟨h0, a3⟩ := andi_one _ _ _ h0
  obtain ⟨h0, a2⟩ := andi_one _ _ _ h0
  obtain ⟨a0, a1⟩ := andi_one _ _ _ h0
  exact ⟨finite_of_all x0 _ _ _ _ a0, finite_of_all x1 _ _ _ _ a1, finite_of_all x2 _ _ _ _ a2,
    finite_of_all x3 _ _ _ _ a3, finite_of_all x4 _ _ _ _ a4, finite_of_all x5 _ _ _ _ a5⟩

end Cert.Finite
-- ==== Proof.lean ====
/-
  Two mean-aggregation layers over a dense weighted graph and a row-wise log-softmax: a kernel in two pipelined
  passes against the plain reference, equal as extended reals under finite inputs.

  Each pass walks 25 blocks of 400 rows of the 10000×10000 weight matrix `adj`. The first pass computes, per node `i`,
  the degree `max (∑ j, adj i j) ε`, the neighbourhood mean of the features, the hidden row
  `max (x i · W1[:128] + mean i · W1[128:] + b1) 0` and from it two 16-wide rows: `yself i = hidden i · W2[:128] + b2`
  and `yneigh i = hidden i · W2[128:]`. The second pass forms the logits `yself i + (∑ j, adj i j · yneigh j) / deg i`
  and their log-softmax. The reference concatenates a node's row with its neighbourhood mean and multiplies by the whole
  256-row matrix, in both layers. The two agree by splitting a sum over 256 indices into its halves and, in the second
  layer, by exchanging the aggregation over neighbours with the product by `W2[128:]`: distributivity, which on the
  extended reals needs every quantity finite — what the precondition gives, the degree being at least `ε > 0`.

  The frames: both passes' bodies read whole blocks and overwrite whole result blocks; the first pass reads the feature
  array through two windows, which hold it at half a share each. The word-level program's frame is the same argument
  at the other float instance. The reference is a host program; its run and its stages read at an index come from the
  generated modules (a repaired copy of the run).
-/
import proofs.«142810_g53910429499711_cont_9to1_m_389_4_alg».proof.Defs
import proofs.«142810_g53910429499711_cont_9to1_m_389_4_alg».proof.Proof.Gen.Kernel
import proofs.«142810_g53910429499711_cont_9to1_m_389_4_alg».proof.Proof.Gen.KernelIdeal
import proofs.«142810_g53910429499711_cont_9to1_m_389_4_alg».proof.Proof.Gen.ReferenceIdeal
import proofs.«142810_g53910429499711_cont_9to1_m_389_4_alg».proof.Proof.Gen.Pre_finite_inputs
import proofs.«142810_g53910429499711_cont_9to1_m_389_4_alg».proof.Proof.KRun
import proofs.«142810_g53910429499711_cont_9to1_m_389_4_alg».proof.Proof.KIRun
import proofs.«142810_g53910429499711_cont_9to1_m_389_4_alg».proof.Proof.KIValue
import proofs.«142810_g53910429499711_cont_9to1_m_389_4_alg».proof.Proof.RefValue
import proofs.«142810_g53910429499711_cont_9to1_m_389_4_alg».proof.Proof.Algebra
import proofs.«142810_g53910429499711_cont_9to1_m_389_4_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end, faults nowhere and leaves its arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- Both programs end at one function of the argument arrays: the kernel's arrangement `kernelOut` (the run, the
    blocks gathered into arrays, the payloads read at an index), the reference's arrangement `refOut` (its run read
    stage by stage), and the two arrangements agree where every input is a real number. -/
theorem algebraic : Cert.algebraic_KernelIdeal_ReferenceIdeal := by
  intro m ρ m' ρ' hpre hagree
  refine ⟨fun c => fun i => Cert.Spec.kernelOut
      (Cert.Spec.mat (m ((c.tc : Thread Cert.KernelIdeal.nD Cert.KernelIdeal.τ).loc Cert.KernelIdeal.main_arg1)))
      (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg2)))
      (Cert.Spec.vec (m ((c.tc : Thread Cert.KernelIdeal.nD Cert.KernelIdeal.τ).loc Cert.KernelIdeal.main_arg3)))
      (Cert.Spec.mat (m ((c.tc : Thread Cert.KernelIdeal.nD Cert.KernelIdeal.τ).loc Cert.KernelIdeal.main_arg4)))
      (Cert.Spec.vec (m ((c.tc : Thread Cert.KernelIdeal.nD Cert.KernelIdeal.τ).loc Cert.KernelIdeal.main_arg5))) (i 0) (i 1), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.ref_run m' ρ')
    obtain ⟨h0, h1, h2, h3, h4, h5⟩ := Cert.Finite.finite_of_fn _ _ _ _ _ _ (hpre c)
    rw [(hagree c).1, (hagree c).2.1, (hagree c).2.2.1, (hagree c).2.2.2.1, (hagree c).2.2.2.2.1, (hagree c).2.2.2.2.2]
    funext i
    exact congrFun (congrFun (Cert.Spec.refOut_eq_kernelOut _ _ _ _ _ _
      (fun a b => h1 (ix2 a b)) (fun a b => h0 (ix2 a b)) (fun a b => h2 (ix2 a b)) (fun a => h3 (ix1 a))
      (fun a b => h4 (ix2 a b)) (fun a => h5 (ix1 a))) (i 0)) (i 1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
